-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_1000000000000000000000000000000" .f32 0x0DA24260#32 ((1 / 1000000000000000000000000000000 : ℝ) : EReal)
  ∧ IdealRules.named_const.Statement Cert.KernelIdeal.κ "inv_1000000000000000000000000000000" .f32 0x0DA24260#32 ((1 / 1000000000000000000000000000000 : ℝ) : EReal)
  ∧ IdealRules.named_const.Statement Cert.KernelIdeal.κ "inv_1000000000000000000000000000000" .f32 0x0DA24260#32 ((1 / 1000000000000000000000000000000 : ℝ) : EReal)
  ∧ IdealRules.named_const.Statement Cert.KernelIdeal.κ "inv_1000000000000000000000000000000" .f32 0x0DA24260#32 ((1 / 1000000000000000000000000000000 : ℝ) : EReal)
  ∧ IdealRules.named_const.Statement Cert.KernelIdeal.κ "inv_1000000000000000000000000000000" .f32 0x0DA24260#32 ((1 / 1000000000000000000000000000000 : ℝ) : EReal)
  ∧ IdealRules.named_const.Statement Cert.KernelIdeal.κ "inv_1000000000000000000000000000000" .f32 0x0DA24260#32 ((1 / 1000000000000000000000000000000 : ℝ) : EReal)
  ∧ IdealRules.named_const.Statement Cert.KernelIdeal.κ "inv_1000000000000000000000000000000" .f32 0x0DA24260#32 ((1 / 1000000000000000000000000000000 : ℝ) : EReal)
  ∧ IdealRules.named_const.Statement Cert.KernelIdeal.κ "inv_1000000000000000000000000000000" .f32 0x0DA24260#32 ((1 / 1000000000000000000000000000000 : ℝ) : EReal)
  ∧ IdealRules.named_const.Statement Cert.KernelIdeal.κ "inv_1000000000000000000000000000000" .f32 0x0DA24260#32 ((1 / 1000000000000000000000000000000 : ℝ) : EReal)
  ∧ IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : IVec S4096 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  main_v3
-- ==== Kernel.lean ====
abbrev S4096x128 : Shape := ⟨2, ![4096, 128]⟩
abbrev S4096 : Shape := ⟨1, ![4096]⟩
abbrev S4096x1 : Shape := ⟨2, ![4096, 1]⟩
abbrev S1x4096 : Shape := ⟨2, ![1, 4096]⟩
abbrev S1x1 : Shape := ⟨2, ![1, 1]⟩
abbrev S_ : Shape := ⟨0, ![]⟩
abbrev S4096x256 : Shape := ⟨2, ![4096, 256]⟩
abbrev S1024x1024 : Shape := ⟨2, ![1024, 1024]⟩
abbrev S1024x256 : Shape := ⟨2, ![1024, 256]⟩
abbrev S1024x1 : Shape := ⟨2, ![1024, 1]⟩
abbrev S1x1024 : Shape := ⟨2, ![1, 1024]⟩
abbrev S8x1024 : Shape := ⟨2, ![8, 1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 6
  | .vmem => 4
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S1x1, .f32⟩
  | .hbm, ⟨5, _⟩ => ⟨S_, .f32⟩
  | .local _ .vmem, ⟨0, _⟩ => ⟨S4096x128, .f32⟩
  | .local _ .vmem, ⟨1, _⟩ => ⟨S4096x1, .i32⟩
  | .local _ .vmem, ⟨2, _⟩ => ⟨S1x4096, .i32⟩
  | .local _ .vmem, ⟨3, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  shapeCasts_S4096_S4096x1 : S4096.ShapeCasts S4096x1
  shapeCasts_S4096_S1x4096 : S4096.ShapeCasts S1x4096
  shapeCasts_S1x1_S_ : S1x1.ShapeCasts S_
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  iota_S4096x128_d1_w32 : S4096x128.Iotas .tc 32 [1]
  shapeCasts_S4096x1_S4096x1 : S4096x1.ShapeCasts S4096x1
  broadcasts_S4096x1_S4096x128 : S4096x1.Broadcasts S4096x128
  concatenates_S4096x128_S4096x128_S4096x256_d1 : Shape.Concatenates [S4096x128, S4096x128] S4096x256 1
  iota_S1024x1024_d0_w32 : S1024x1024.Iotas .tc 32 [0]
  iota_S1024x1024_d1_w32 : S1024x1024.Iotas .tc 32 [1]
  slices_S4096x256_o0_0_S1024x256 : S4096x256.Slices ![0, 0] S1024x256
  inb_S4096x1_S1024x1_0_0 : ∀ a, (![0, 0] : Fin 2 → Nat) a + S1024x1.size a ≤ S4096x1.size a
  h_S1024x1 : 0 < S1024x1.numel
  shapeCasts_S1024x1_S1024x1 : S1024x1.ShapeCasts S1024x1
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  slices_S1024x1024_o0_0_S8x1024 : S1024x1024.Slices ![0, 0] S8x1024
  slices_S1024x1024_o8_0_S8x1024 : S1024x1024.Slices ![8, 0] S8x1024
  slices_S1024x1024_o16_0_S8x1024 : S1024x1024.Slices ![16, 0] S8x1024
  slices_S1024x1024_o24_0_S8x1024 : S1024x1024.Slices ![24, 0] S8x1024
  slices_S1024x1024_o32_0_S8x1024 : S1024x1024.Slices ![32, 0] S8x1024
  slices_S1024x1024_o40_0_S8x1024 : S1024x1024.Slices ![40, 0] S8x1024
  slices_S1024x1024_o48_0_S8x1024 : S1024x1024.Slices ![48, 0] S8x1024
  slices_S1024x1024_o56_0_S8x1024 : S1024x1024.Slices ![56, 0] S8x1024
  slices_S1024x1024_o64_0_S8x1024 : S1024x1024.Slices ![64, 0] S8x1024
  slices_S1024x1024_o72_0_S8x1024 : S1024x1024.Slices ![72, 0] S8x1024
  slices_S1024x1024_o80_0_S8x1024 : S1024x1024.Slices ![80, 0] S8x1024
  slices_S1024x1024_o88_0_S8x1024 : S1024x1024.Slices ![88, 0] S8x1024
  slices_S1024x1024_o96_0_S8x1024 : S1024x1024.Slices ![96, 0] S8x1024
  slices_S1024x1024_o104_0_S8x1024 : S1024x1024.Slices ![104, 0] S8x1024
  slices_S1024x1024_o112_0_S8x1024 : S1024x1024.Slices ![112, 0] S8x1024
  slices_S1024x1024_o120_0_S8x1024 : S1024x1024.Slices ![120, 0] S8x1024
  slices_S1024x1024_o128_0_S8x1024 : S1024x1024.Slices ![128, 0] S8x1024
  slices_S1024x1024_o136_0_S8x1024 : S1024x1024.Slices ![136, 0] S8x1024
  slices_S1024x1024_o144_0_S8x1024 : S1024x1024.Slices ![144, 0] S8x1024
  slices_S1024x1024_o152_0_S8x1024 : S1024x1024.Slices ![152, 0] S8x1024
  slices_S1024x1024_o160_0_S8x1024 : S1024x1024.Slices ![160, 0] S8x1024
  slices_S1024x1024_o168_0_S8x1024 : S1024x1024.Slices ![168, 0] S8x1024
  slices_S1024x1024_o176_0_S8x1024 : S1024x1024.Slices ![176, 0] S8x1024
  slices_S1024x1024_o184_0_S8x1024 : S1024x1024.Slices ![184, 0] S8x1024
  slices_S1024x1024_o192_0_S8x1024 : S1024x1024.Slices ![192, 0] S8x1024
  slices_S1024x1024_o200_0_S8x1024 : S1024x1024.Slices ![200, 0] S8x1024
  slices_S1024x1024_o208_0_S8x1024 : S1024x1024.Slices ![208, 0] S8x1024
  slices_S1024x1024_o216_0_S8x1024 : S1024x1024.Slices ![216, 0] S8x1024
  slices_S1024x1024_o224_0_S8x1024 : S1024x1024.Slices ![224, 0] S8x1024
  slices_S1024x1024_o232_0_S8x1024 : S1024x1024.Slices ![232, 0] S8x1024
  slices_S1024x1024_o240_0_S8x1024 : S1024x1024.Slices ![240, 0] S8x1024
  slices_S1024x1024_o248_0_S8x1024 : S1024x1024.Slices ![248, 0] S8x1024
  slices_S1024x1024_o256_0_S8x1024 : S1024x1024.Slices ![256, 0] S8x1024
  slices_S1024x1024_o264_0_S8x1024 : S1024x1024.Slices ![264, 0] S8x1024
  slices_S1024x1024_o272_0_S8x1024 : S1024x1024.Slices ![272, 0] S8x1024
  slices_S1024x1024_o280_0_S8x1024 : S1024x1024.Slices ![280, 0] S8x1024
  slices_S1024x1024_o288_0_S8x1024 : S1024x1024.Slices ![288, 0] S8x1024
  slices_S1024x1024_o296_0_S8x1024 : S1024x1024.Slices ![296, 0] S8x1024
  slices_S1024x1024_o304_0_S8x1024 : S1024x1024.Slices ![304, 0] S8x1024
  slices_S1024x1024_o312_0_S8x1024 : S1024x1024.Slices ![312, 0] S8x1024
  slices_S1024x1024_o320_0_S8x1024 : S1024x1024.Slices ![320, 0] S8x1024
  slices_S1024x1024_o328_0_S8x1024 : S1024x1024.Slices ![328, 0] S8x1024
  slices_S1024x1024_o336_0_S8x1024 : S1024x1024.Slices ![336, 0] S8x1024
  slices_S1024x1024_o344_0_S8x1024 : S1024x1024.Slices ![344, 0] S8x1024
  slices_S1024x1024_o352_0_S8x1024 : S1024x1024.Slices ![352, 0] S8x1024
  slices_S1024x1024_o360_0_S8x1024 : S1024x1024.Slices ![360, 0] S8x1024
  slices_S1024x1024_o368_0_S8x1024 : S1024x1024.Slices ![368, 0] S8x1024
  slices_S1024x1024_o376_0_S8x1024 : S1024x1024.Slices ![376, 0] S8x1024
  slices_S1024x1024_o384_0_S8x1024 : S1024x1024.Slices ![384, 0] S8x1024
  slices_S1024x1024_o392_0_S8x1024 : S1024x1024.Slices ![392, 0] S8x1024
  slices_S1024x1024_o400_0_S8x1024 : S1024x1024.Slices ![400, 0] S8x1024
  slices_S1024x1024_o408_0_S8x1024 : S1024x1024.Slices ![408, 0] S8x1024
  slices_S1024x1024_o416_0_S8x1024 : S1024x1024.Slices ![416, 0] S8x1024
  slices_S1024x1024_o424_0_S8x1024 : S1024x1024.Slices ![424, 0] S8x1024
  slices_S1024x1024_o432_0_S8x1024 : S1024x1024.Slices ![432, 0] S8x1024
  slices_S1024x1024_o440_0_S8x1024 : S1024x1024.Slices ![440, 0] S8x1024
  slices_S1024x1024_o448_0_S8x1024 : S1024x1024.Slices ![448, 0] S8x1024
  slices_S1024x1024_o456_0_S8x1024 : S1024x1024.Slices ![456, 0] S8x1024
  slices_S1024x1024_o464_0_S8x1024 : S1024x1024.Slices ![464, 0] S8x1024
  slices_S1024x1024_o472_0_S8x1024 : S1024x1024.Slices ![472, 0] S8x1024
  slices_S1024x1024_o480_0_S8x1024 : S1024x1024.Slices ![480, 0] S8x1024
  slices_S1024x1024_o488_0_S8x1024 : S1024x1024.Slices ![488, 0] S8x1024
  slices_S1024x1024_o496_0_S8x1024 : S1024x1024.Slices ![496, 0] S8x1024
  slices_S1024x1024_o504_0_S8x1024 : S1024x1024.Slices ![504, 0] S8x1024
  slices_S1024x1024_o512_0_S8x1024 : S1024x1024.Slices ![512, 0] S8x1024
  slices_S1024x1024_o520_0_S8x1024 : S1024x1024.Slices ![520, 0] S8x1024
  slices_S1024x1024_o528_0_S8x1024 : S1024x1024.Slices ![528, 0] S8x1024
  slices_S1024x1024_o536_0_S8x1024 : S1024x1024.Slices ![536, 0] S8x1024
  slices_S1024x1024_o544_0_S8x1024 : S1024x1024.Slices ![544, 0] S8x1024
  slices_S1024x1024_o552_0_S8x1024 : S1024x1024.Slices ![552, 0] S8x1024
  slices_S1024x1024_o560_0_S8x1024 : S1024x1024.Slices ![560, 0] S8x1024
  slices_S1024x1024_o568_0_S8x1024 : S1024x1024.Slices ![568, 0] S8x1024
  slices_S1024x1024_o576_0_S8x1024 : S1024x1024.Slices ![576, 0] S8x1024
  slices_S1024x1024_o584_0_S8x1024 : S1024x1024.Slices ![584, 0] S8x1024
  slices_S1024x1024_o592_0_S8x1024 : S1024x1024.Slices ![592, 0] S8x1024
  slices_S1024x1024_o600_0_S8x1024 : S1024x1024.Slices ![600, 0] S8x1024
  slices_S1024x1024_o608_0_S8x1024 : S1024x1024.Slices ![608, 0] S8x1024
  slices_S1024x1024_o616_0_S8x1024 : S1024x1024.Slices ![616, 0] S8x1024
  slices_S1024x1024_o624_0_S8x1024 : S1024x1024.Slices ![624, 0] S8x1024
  slices_S1024x1024_o632_0_S8x1024 : S1024x1024.Slices ![632, 0] S8x1024
  slices_S1024x1024_o640_0_S8x1024 : S1024x1024.Slices ![640, 0] S8x1024
  slices_S1024x1024_o648_0_S8x1024 : S1024x1024.Slices ![648, 0] S8x1024
  slices_S1024x1024_o656_0_S8x1024 : S1024x1024.Slices ![656, 0] S8x1024
  slices_S1024x1024_o664_0_S8x1024 : S1024x1024.Slices ![664, 0] S8x1024
  slices_S1024x1024_o672_0_S8x1024 : S1024x1024.Slices ![672, 0] S8x1024
  slices_S1024x1024_o680_0_S8x1024 : S1024x1024.Slices ![680, 0] S8x1024
  slices_S1024x1024_o688_0_S8x1024 : S1024x1024.Slices ![688, 0] S8x1024
  slices_S1024x1024_o696_0_S8x1024 : S1024x1024.Slices ![696, 0] S8x1024
  slices_S1024x1024_o704_0_S8x1024 : S1024x1024.Slices ![704, 0] S8x1024
  slices_S1024x1024_o712_0_S8x1024 : S1024x1024.Slices ![712, 0] S8x1024
  slices_S1024x1024_o720_0_S8x1024 : S1024x1024.Slices ![720, 0] S8x1024
  slices_S1024x1024_o728_0_S8x1024 : S1024x1024.Slices ![728, 0] S8x1024
  slices_S1024x1024_o736_0_S8x1024 : S1024x1024.Slices ![736, 0] S8x1024
  slices_S1024x1024_o744_0_S8x1024 : S1024x1024.Slices ![744, 0] S8x1024
  slices_S1024x1024_o752_0_S8x1024 : S1024x1024.Slices ![752, 0] S8x1024
  slices_S1024x1024_o760_0_S8x1024 : S1024x1024.Slices ![760, 0] S8x1024
  slices_S1024x1024_o768_0_S8x1024 : S1024x1024.Slices ![768, 0] S8x1024
  slices_S1024x1024_o776_0_S8x1024 : S1024x1024.Slices ![776, 0] S8x1024
  slices_S1024x1024_o784_0_S8x1024 : S1024x1024.Slices ![784, 0] S8x1024
  slices_S1024x1024_o792_0_S8x1024 : S1024x1024.Slices ![792, 0] S8x1024
  slices_S1024x1024_o800_0_S8x1024 : S1024x1024.Slices ![800, 0] S8x1024
  slices_S1024x1024_o808_0_S8x1024 : S1024x1024.Slices ![808, 0] S8x1024
  slices_S1024x1024_o816_0_S8x1024 : S1024x1024.Slices ![816, 0] S8x1024
  slices_S1024x1024_o824_0_S8x1024 : S1024x1024.Slices ![824, 0] S8x1024
  slices_S1024x1024_o832_0_S8x1024 : S1024x1024.Slices ![832, 0] S8x1024
  slices_S1024x1024_o840_0_S8x1024 : S1024x1024.Slices ![840, 0] S8x1024
  slices_S1024x1024_o848_0_S8x1024 : S1024x1024.Slices ![848, 0] S8x1024
  slices_S1024x1024_o856_0_S8x1024 : S1024x1024.Slices ![856, 0] S8x1024
  slices_S1024x1024_o864_0_S8x1024 : S1024x1024.Slices ![864, 0] S8x1024
  slices_S1024x1024_o872_0_S8x1024 : S1024x1024.Slices ![872, 0] S8x1024
  slices_S1024x1024_o880_0_S8x1024 : S1024x1024.Slices ![880, 0] S8x1024
  slices_S1024x1024_o888_0_S8x1024 : S1024x1024.Slices ![888, 0] S8x1024
  slices_S1024x1024_o896_0_S8x1024 : S1024x1024.Slices ![896, 0] S8x1024
  slices_S1024x1024_o904_0_S8x1024 : S1024x1024.Slices ![904, 0] S8x1024
  slices_S1024x1024_o912_0_S8x1024 : S1024x1024.Slices ![912, 0] S8x1024
  slices_S1024x1024_o920_0_S8x1024 : S1024x1024.Slices ![920, 0] S8x1024
  slices_S1024x1024_o928_0_S8x1024 : S1024x1024.Slices ![928, 0] S8x1024
  slices_S1024x1024_o936_0_S8x1024 : S1024x1024.Slices ![936, 0] S8x1024
  slices_S1024x1024_o944_0_S8x1024 : S1024x1024.Slices ![944, 0] S8x1024
  slices_S1024x1024_o952_0_S8x1024 : S1024x1024.Slices ![952, 0] S8x1024
  slices_S1024x1024_o960_0_S8x1024 : S1024x1024.Slices ![960, 0] S8x1024
  slices_S1024x1024_o968_0_S8x1024 : S1024x1024.Slices ![968, 0] S8x1024
  slices_S1024x1024_o976_0_S8x1024 : S1024x1024.Slices ![976, 0] S8x1024
  slices_S1024x1024_o984_0_S8x1024 : S1024x1024.Slices ![984, 0] S8x1024
  slices_S1024x1024_o992_0_S8x1024 : S1024x1024.Slices ![992, 0] S8x1024
  slices_S1024x1024_o1000_0_S8x1024 : S1024x1024.Slices ![1000, 0] S8x1024
  slices_S1024x1024_o1008_0_S8x1024 : S1024x1024.Slices ![1008, 0] S8x1024
  slices_S1024x1024_o1016_0_S8x1024 : S1024x1024.Slices ![1016, 0] S8x1024
  slices_S4096x256_o1024_0_S1024x256 : S4096x256.Slices ![1024, 0] S1024x256
  inb_S1x4096_S1x1024_0_1024 : ∀ a, (![0, 1024] : Fin 2 → Nat) a + S1x1024.size a ≤ S1x4096.size a
  slices_S4096x256_o2048_0_S1024x256 : S4096x256.Slices ![2048, 0] S1024x256
  inb_S1x4096_S1x1024_0_2048 : ∀ a, (![0, 2048] : Fin 2 → Nat) a + S1x1024.size a ≤ S1x4096.size a
  slices_S4096x256_o3072_0_S1024x256 : S4096x256.Slices ![3072, 0] S1024x256
  inb_S1x4096_S1x1024_0_3072 : ∀ a, (![0, 3072] : Fin 2 → Nat) a + S1x1024.size a ≤ S1x4096.size a
  inb_S4096x1_S1024x1_1024_0 : ∀ a, (![1024, 0] : Fin 2 → Nat) a + S1024x1.size a ≤ S4096x1.size a
  inb_S4096x1_S1024x1_2048_0 : ∀ a, (![2048, 0] : Fin 2 → Nat) a + S1024x1.size a ≤ S4096x1.size a
  inb_S4096x1_S1024x1_3072_0 : ∀ a, (![3072, 0] : Fin 2 → Nat) a + S1024x1.size a ≤ S4096x1.size a
  shapeCasts_S8x1024_S1x8x1024 : S8x1024.ShapeCasts S1x8x1024
  reduces_S1x8x1024_S1 : S1x8x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  dot_S1024x256_S1024x256_S1024x1024_1_1_0_0_n_n_wf : DotDims.WF S1024x256 S1024x256 S1024x1024 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_call0_v0) false false (stage0_1 0) (sem0_1 0) (Memref.isWhole_whole _) (hstage0_1 0)

abbrev win0_2 : Pipeline.Window sig grid0 :=
  Pipeline.Window.whole (Memref.whole main_call0_v1) false false (stage0_2 0) (sem0_2 0) (Memref.isWhole_whole _) (hstage0_2 0)

abbrev win0_3 : Pipeline.Window sig grid0 :=
  Pipeline.Window.whole (Memref.whole main_call0_v2) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096 : Shape := ⟨1, ![4096]⟩
abbrev S_ : Shape := ⟨0, ![]⟩
abbrev S128x4096 : Shape := ⟨2, ![128, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 76
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S128x4096, .f32⟩
  | .hbm, ⟨8, _⟩ => ⟨S4096x4096, .f32⟩
  | .hbm, ⟨9, _⟩ => ⟨S4096x1, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x1, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x1, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .i1⟩
  | .hbm, ⟨40, _⟩ => ⟨S4096x4096, .i1⟩
  | .hbm, ⟨41, _⟩ => ⟨S4096x4096, .i32⟩
  | .hbm, ⟨42, _⟩ => ⟨S_, .i32⟩
  | .hbm, ⟨43, _⟩ => ⟨S4096x4096, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S_, .i1⟩
  | .hbm, ⟨48, _⟩ => ⟨S4096x4096, .i1⟩
  | .hbm, ⟨49, _⟩ => ⟨S4096x4096, .i1⟩
  | .hbm, ⟨50, _⟩ => ⟨S4096x4096, .i1⟩
  | .hbm, ⟨51, _⟩ => ⟨S4096x4096, .i1⟩
  | .hbm, ⟨52, _⟩ => ⟨S4096x4096, .i1⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_v31 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_0 : Ref sig .tc := ⟨.hbm, 47, rfl⟩
abbrev main_call0_v5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_call2_v0 : Ref sig .tc := ⟨.hbm, 68, rfl⟩
abbrev main_call2_v1 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  transposes_S4096x128_S128x4096_1_0 : S4096x128.Transposes [1, 0] S128x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x128_S128x4096_S4096x4096_1_0_0_1_n_n_wf : DotDims.WF S4096x128 S128x4096 S4096x4096 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.Tot.lean ====
/-
  The total of a block. The kernel adds the entries of each 1024×1024 tile of pair terms in row blocks of eight:
  a block of rows [o, o+8) is sliced out as an 8×1024 vector, the 8×1024 vectors are added entrywise, and at the
  very end every entry of the one remaining 8×1024 vector is added up. Adding up all entries is additive, so it
  may be taken slice by slice: the total of the slice at row offset `o` is the sum of the eight row sums
  `o, …, o+7` of the tile. Row sums are indexed by a natural number (zero past the last row) so that offsets
  are plain numerals.
-/
import Idealize.ShloMosaic.Lib.Pipeline.Value
import Idealize.ShloMosaic.Lib.ValueIdx
import Idealize.ShloMosaic.PureOps.Ideal.Laws

noncomputable section

namespace Cert.Tot

open Idealize.ShloMosaic Idealize.ShloMosaic.ValueIdx

abbrev B8 : Shape := ⟨2, ![8, 1024]⟩
abbrev T1024 : Shape := ⟨2, ![1024, 1024]⟩

/-- The sum of all 8·1024 entries. -/
def tot (v : B8.Idx → EReal) : EReal := ∑ j : B8.Idx, v j

/-- Entrywise addition adds the totals. -/
theorem tot_addf (a b : FVec Ideal B8 .f32) : tot (addf a b) = tot a + tot b := by
  unfold tot
  simp only [addf_apply]
  exact Finset.sum_add_distrib

/-- Row `n`'s sum of a 1024×1024 matrix; zero when there is no such row. -/
def rowN (V : T1024.Idx → EReal) (n : ℕ) : EReal :=
  if h : n < 1024 then ∑ c : Fin 1024, V (ix2 ⟨n, h⟩ c) else 0

/-- The eight row sums from row `o` on. -/
def blk (V : T1024.Idx → EReal) (o : ℕ) : EReal := ∑ r : Fin 8, rowN V (o + r.val)

/-- The total of the rows [o, o+8) sliced out of a tile is the sum of those eight row sums. -/
theorem tot_slice (o : ℕ) (V : FVec Ideal T1024 .f32) (h : T1024.Slices ![o, 0] B8) :
    tot (extractStridedSlice B8 ![o, 0] V h) = blk V o := by
  have ho : o + 8 ≤ 1024 := by
    obtain ⟨hr, hs⟩ := h
    exact hs 0
  unfold tot blk
  rw [sum_idx2]
  refine Finset.sum_congr rfl fun r _ => ?_
  have hr : o + r.val < 1024 := by have := r.isLt; omega
  unfold rowN
  rw [dif_pos hr]
  refine Finset.sum_congr rfl fun c _ => ?_
  refine extractStridedSlice_apply ![o, 0] V h (ix2 r c) (ix2 ⟨o + r.val, hr⟩ c) fun a => ?_
  match a with
  | ⟨0, _⟩ => rfl
  | ⟨1, _⟩ => show c.val = 0 + c.val; omega

/-- All 1024 row sums of a tile add up to the sum over all its entries. -/
theorem sum_rowN (V : T1024.Idx → EReal) : ∑ row : Fin 1024, rowN V row.val = ∑ r : Fin 1024, ∑ c : Fin 1024, V (ix2 r c) := by
  refine Finset.sum_congr rfl fun row _ => ?_
  unfold rowN
  rw [dif_pos row.isLt]

end Cert.Tot

end
-- ==== Proof.TileSum.lean ====
import Idealize.ShloMosaic.PureOps.Ideal
noncomputable section
open Idealize.ShloMosaic

/-!
# Tiled evaluation of a strictly-upper-triangular pair sum

A sum over all ordered pairs (i, j) of 4096 indices of a term that vanishes unless i < j can be
evaluated tile by tile: cut the 4096 × 4096 pair matrix into 4 × 4 tiles of 1024 × 1024.  Tiles
below the diagonal contribute nothing, a diagonal tile contributes its strictly upper triangle,
and a tile above the diagonal contributes all of itself.  Inside a tile the 1024 rows may be added
in 128 blocks of 8, the block sums being combined by a balanced binary tree.  Everything takes
place in a commutative additive monoid, so only re-indexing, commutativity and associativity are
used.
-/

namespace Cert.TileSum

/-- Global index of local index r of tile-row (or tile-column) I. -/
def tileIdx (I : Fin 4) (r : Fin 1024) : Fin 4096 := ⟨1024 * I.val + r.val, by omega⟩

variable {M : Type*} [AddCommMonoid M]

/-- A sum over a * b consecutive naturals, cut into a consecutive blocks of length b. -/
theorem sum_range_blocks (a b : ℕ) (h : ℕ → M) :
    ∑ m ∈ Finset.range a, ∑ r ∈ Finset.range b, h (b * m + r)
      = ∑ n ∈ Finset.range (a * b), h n := by
  induction a with
  | zero => simp
  | succ a ih =>
    rw [Finset.sum_range_succ, ih, add_one_mul, Finset.sum_range_add, Nat.mul_comm b a]

/-- The same re-indexing for sums over Fin: any index map idx whose value is b * m + r
enumerates Fin (a * b) block by block. -/
theorem sum_fin_blocks {a b n : ℕ} (hn : a * b = n) (h : Fin n → M)
    (idx : Fin a → Fin b → Fin n) (hidx : ∀ m r, (idx m r).val = b * m.val + r.val) :
    ∑ m : Fin a, ∑ r : Fin b, h (idx m r) = ∑ i : Fin n, h i := by
  subst hn
  -- extend h by zero to a function on the naturals
  obtain ⟨h', hh'⟩ : ∃ h' : ℕ → M, ∀ i : Fin (a * b), h i = h' i.val :=
    ⟨fun k => if hk : k < a * b then h ⟨k, hk⟩ else 0, fun i => by simp⟩
  have key := sum_range_blocks a b h'
  simp only [Finset.sum_range] at key
  simpa only [hh', hidx] using key

theorem sum_rows8 (h : Fin 1024 → M) :
    ∑ m : Fin 128, ∑ r : Fin 8, h ⟨8 * m.val + r.val, by omega⟩ = ∑ row : Fin 1024, h row :=
  sum_fin_blocks (a := 128) (b := 8) (by norm_num) h
    (fun m r => ⟨8 * m.val + r.val, by omega⟩) (fun _ _ => rfl)

/-- The balanced binary tree over 2^k consecutive parts starting at part s. -/
def tree : (k : ℕ) → (ℕ → M) → ℕ → M
  | 0, f, s => f s
  | k+1, f, s => tree k f s + tree k f (s + 2^k)

/-- The tree adds its 2^k leaves: split the range 2^(k+1) = 2^k + 2^k in two halves. -/
theorem tree_eq_sum (k : ℕ) (f : ℕ → M) (s : ℕ) :
    tree k f s = ∑ m ∈ Finset.range (2^k), f (s + m) := by
  induction k generalizing s with
  | zero => simp [tree]
  | succ k ih =>
    rw [tree, ih, ih, pow_succ, Nat.mul_two, Finset.sum_range_add]
    simp only [add_assoc]

/-- 128 blocks of 8 rows, combined by the tree, are the sum over all 1024 rows. -/
theorem tree7_blocks (hN : ℕ → M) :
    tree 7 (fun m => ∑ r : Fin 8, hN (8 * m + r.val)) 0 = ∑ row : Fin 1024, hN row.val := by
  have h128 : (2 : ℕ) ^ 7 = 128 := by norm_num
  have key := sum_range_blocks 128 8 hN
  rw [show 128 * 8 = 1024 from rfl] at key
  rw [tree_eq_sum, h128]
  simp only [zero_add]
  simp only [Finset.sum_range] at key ⊢
  exact key

/-- One index: the 4096 indices are the four tile-rows of 1024 local indices. -/
theorem sum_tile_index (h : Fin 4096 → M) :
    ∑ I : Fin 4, ∑ r : Fin 1024, h (tileIdx I r) = ∑ i : Fin 4096, h i :=
  sum_fin_blocks (a := 4) (b := 1024) (by norm_num) h tileIdx (fun _ _ => rfl)

theorem sum_tiles (f : Fin 4096 → Fin 4096 → M) :
    ∑ i, ∑ j, f i j
      = ∑ I : Fin 4, ∑ J : Fin 4, ∑ r : Fin 1024, ∑ c : Fin 1024, f (tileIdx I r) (tileIdx J c) := by
  calc ∑ i, ∑ j, f i j
      = ∑ I : Fin 4, ∑ r : Fin 1024, ∑ j, f (tileIdx I r) j :=
        (sum_tile_index (fun i => ∑ j, f i j)).symm
    _ = ∑ I : Fin 4, ∑ r : Fin 1024, ∑ J : Fin 4, ∑ c : Fin 1024,
          f (tileIdx I r) (tileIdx J c) := by
        refine Finset.sum_congr rfl (fun I _ => Finset.sum_congr rfl (fun r _ => ?_))
        exact (sum_tile_index (fun j => f (tileIdx I r) j)).symm
    _ = _ := by
        refine Finset.sum_congr rfl (fun I _ => ?_)
        exact Finset.sum_comm

/-- A diagonal tile's strictly upper triangle, and a whole tile. -/
def diagTile (g : Fin 4096 → Fin 4096 → M) (I : Fin 4) : M :=
  ∑ r : Fin 1024, ∑ c : Fin 1024, if r < c then g (tileIdx I r) (tileIdx I c) else 0
def fullTile (g : Fin 4096 → Fin 4096 → M) (I J : Fin 4) : M :=
  ∑ r : Fin 1024, ∑ c : Fin 1024, g (tileIdx I r) (tileIdx J c)

/-- Above the diagonal every row index is below every column index: the whole tile is live. -/
theorem tile_above (g : Fin 4096 → Fin 4096 → M) (I J : Fin 4) (hIJ : I < J) :
    (∑ r : Fin 1024, ∑ c : Fin 1024,
      if tileIdx I r < tileIdx J c then g (tileIdx I r) (tileIdx J c) else 0) = fullTile g I J := by
  unfold fullTile
  refine Finset.sum_congr rfl (fun r _ => Finset.sum_congr rfl (fun c _ => ?_))
  have hlt : tileIdx I r < tileIdx J c := by
    have := Fin.lt_def.mp hIJ
    simp only [tileIdx, Fin.lt_def]; omega
  rw [if_pos hlt]

/-- Below the diagonal no row index is below a column index: the tile contributes nothing. -/
theorem tile_below (g : Fin 4096 → Fin 4096 → M) (I J : Fin 4) (hJI : J < I) :
    (∑ r : Fin 1024, ∑ c : Fin 1024,
      if tileIdx I r < tileIdx J c then g (tileIdx I r) (tileIdx J c) else 0) = 0 := by
  refine Finset.sum_eq_zero (fun r _ => Finset.sum_eq_zero (fun c _ => ?_))
  have hnlt : ¬ tileIdx I r < tileIdx J c := by
    have := Fin.lt_def.mp hJI
    simp only [tileIdx, Fin.lt_def]; omega
  rw [if_neg hnlt]

/-- On the diagonal the global order of the indices is the local order. -/
theorem tile_diag (g : Fin 4096 → Fin 4096 → M) (I : Fin 4) :
    (∑ r : Fin 1024, ∑ c : Fin 1024,
      if tileIdx I r < tileIdx I c then g (tileIdx I r) (tileIdx I c) else 0) = diagTile g I := by
  unfold diagTile
  refine Finset.sum_congr rfl (fun r _ => Finset.sum_congr rfl (fun c _ => ?_))
  have hiff : tileIdx I r < tileIdx I c ↔ r < c := by
    simp only [tileIdx, Fin.lt_def]; omega
  simp only [hiff]

/-- The strictly-upper-triangular pair sum is the ten live tiles, added in row-major order. -/
theorem sum_upper (g : Fin 4096 → Fin 4096 → M) :
    ∑ i, ∑ j, (if i < j then g i j else 0)
      = (((((((((diagTile g 0 + fullTile g 0 1) + fullTile g 0 2) + fullTile g 0 3)
          + diagTile g 1) + fullTile g 1 2) + fullTile g 1 3)
          + diagTile g 2) + fullTile g 2 3) + diagTile g 3) := by
  rw [sum_tiles (fun i j => if i < j then g i j else 0)]
  simp only [Fin.sum_univ_four]
  rw [tile_diag g 0, tile_above g 0 1 (by decide), tile_above g 0 2 (by decide),
    tile_above g 0 3 (by decide),
    tile_below g 1 0 (by decide), tile_diag g 1, tile_above g 1 2 (by decide),
    tile_above g 1 3 (by decide),
    tile_below g 2 0 (by decide), tile_below g 2 1 (by decide), tile_diag g 2,
    tile_above g 2 3 (by decide),
    tile_below g 3 0 (by decide), tile_below g 3 1 (by decide), tile_below g 3 2 (by decide),
    tile_diag g 3]
  simp only [zero_add, add_assoc]

end Cert.TileSum

end
-- ==== Proof.KSum.lean ====
/-
  What the kernel's body stores, as a sum. The body forms ten 1024×1024 tiles of pair terms (the tiles on and above
  the diagonal of the 4×4 tiling of the pair matrix, row by row), cuts each into 128 blocks of eight rows, adds the
  128 blocks of a tile entrywise by a balanced binary tree, adds the ten 8×1024 results one after the other, and
  stores the sum of all entries of what is left. Summing all entries is additive, so the stored number is the sum,
  over the ten tiles in that order, of the balanced tree over the 128 eight-row block sums of the tile.
-/
import proofs.«179548_g20658792694316_retrytranche2_665_24_alg».proof.Proof.Gen.KernelIdeal.Frame
import proofs.«179548_g20658792694316_retrytranche2_665_24_alg».proof.Proof.Tot
import proofs.«179548_g20658792694316_retrytranche2_665_24_alg».proof.Proof.TileSum
import Idealize.ShloMosaic.Lib.Pipeline.Value
import Idealize.ShloMosaic.Lib.ValueIdx
import Idealize.ShloMosaic.PureOps.Ideal.Laws

set_option maxRecDepth 65536

noncomputable section

namespace Cert.KernelIdeal.KSum

open Idealize.ShloMosaic Idealize.ShloMosaic.ValueIdx Cert.KernelIdeal Cert.KernelIdeal.Gen
open Cert.Tot Cert.TileSum

variable (x0 : Vec Ideal S4096x128 .f32) (x1 : Vec Ideal S4096x1 .i32) (x2 : Vec Ideal S1x4096 .i32)

/-- Tile (0, 0) of the pair matrix, as the body computes it from the three loaded blocks. -/
def T00 : FVec Ideal S1024x1024 .f32 :=
  k0_pay9 (iota .tc S1024x1024 32 [0] iota_S1024x1024_d0_w32) (iota .tc S1024x1024 32 [1] iota_S1024x1024_d1_w32) (k0_pay7 (View.ld x0 r0_0)) (k0_pay8 (View.ld x0 r0_0)) (constant S1024x1024 .f32 0x00000000#32) (View.ld x1 r0_1) (View.ld x2 r0_2)

/-- Tile (0, 1) of the pair matrix, as the body computes it from the three loaded blocks. -/
def T01 : FVec Ideal S1024x1024 .f32 :=
  k0_pay209 (k0_pay207 (k0_pay5 (View.ld x0 r0_0)) (k0_pay6 (View.ld x0 r0_0))) (k0_pay208 (k0_pay5 (View.ld x0 r0_0)) (k0_pay6 (View.ld x0 r0_0))) (View.ld x1 r0_1) (View.ld x2 r0_3)

/-- Tile (0, 2) of the pair matrix, as the body computes it from the three loaded blocks. -/
def T02 : FVec Ideal S1024x1024 .f32 :=
  k0_pay407 (k0_pay5 (View.ld x0 r0_0)) (k0_pay6 (View.ld x0 r0_0)) (View.ld x1 r0_1) (View.ld x2 r0_4)

/-- Tile (0, 3) of the pair matrix, as the body computes it from the three loaded blocks. -/
def T03 : FVec Ideal S1024x1024 .f32 :=
  k0_pay605 (k0_pay5 (View.ld x0 r0_0)) (k0_pay6 (View.ld x0 r0_0)) (View.ld x1 r0_1) (View.ld x2 r0_5)

/-- Tile (1, 1) of the pair matrix, as the body computes it from the three loaded blocks. -/
def T11 : FVec Ideal S1024x1024 .f32 :=
  k0_pay804 (iota .tc S1024x1024 32 [0] iota_S1024x1024_d0_w32) (iota .tc S1024x1024 32 [1] iota_S1024x1024_d1_w32) (k0_pay803 (k0_pay5 (View.ld x0 r0_0)) (k0_pay6 (View.ld x0 r0_0))) (View.ld x1 r0_6) (View.ld x2 r0_3)

/-- Tile (1, 2) of the pair matrix, as the body computes it from the three loaded blocks. -/
def T12 : FVec Ideal S1024x1024 .f32 :=
  k0_pay1004 (k0_pay1002 (k0_pay5 (View.ld x0 r0_0)) (k0_pay6 (View.ld x0 r0_0))) (k0_pay1003 (k0_pay5 (View.ld x0 r0_0)) (k0_pay6 (View.ld x0 r0_0))) (View.ld x1 r0_6) (View.ld x2 r0_4)

/-- Tile (1, 3) of the pair matrix, as the body computes it from the three loaded blocks. -/
def T13 : FVec Ideal S1024x1024 .f32 :=
  k0_pay1202 (k0_pay5 (View.ld x0 r0_0)) (k0_pay6 (View.ld x0 r0_0)) (View.ld x1 r0_6) (View.ld x2 r0_5)

/-- Tile (2, 2) of the pair matrix, as the body computes it from the three loaded blocks. -/
def T22 : FVec Ideal S1024x1024 .f32 :=
  k0_pay1400 (k0_pay5 (View.ld x0 r0_0)) (k0_pay6 (View.ld x0 r0_0)) (iota .tc S1024x1024 32 [0] iota_S1024x1024_d0_w32) (iota .tc S1024x1024 32 [1] iota_S1024x1024_d1_w32) (View.ld x1 r0_7) (View.ld x2 r0_4)

/-- Tile (2, 3) of the pair matrix, as the body computes it from the three loaded blocks. -/
def T23 : FVec Ideal S1024x1024 .f32 :=
  k0_pay1598 (k0_pay5 (View.ld x0 r0_0)) (k0_pay6 (View.ld x0 r0_0)) (View.ld x1 r0_7) (View.ld x2 r0_5)

/-- Tile (3, 3) of the pair matrix, as the body computes it from the three loaded blocks. -/
def T33 : FVec Ideal S1024x1024 .f32 :=
  k0_pay1798 (iota .tc S1024x1024 32 [0] iota_S1024x1024_d0_w32) (iota .tc S1024x1024 32 [1] iota_S1024x1024_d1_w32) (k0_pay1796 (k0_pay5 (View.ld x0 r0_0)) (k0_pay6 (View.ld x0 r0_0))) (k0_pay1797 (k0_pay5 (View.ld x0 r0_0)) (k0_pay6 (View.ld x0 r0_0))) (View.ld x1 r0_8) (View.ld x2 r0_5)

/-- The balanced tree over a tile's 128 eight-row block sums. -/
def part (V : FVec Ideal S1024x1024 .f32) : EReal := tree 7 (fun m => blk V (8 * m)) 0

/-- The body's last steps — view the 8×1024 vector as 1×8×1024, add over the last two axes, view the one number as
    1×1×1, extract it, splat it over the 1×1 block — leave the sum of all 8·1024 entries. -/
theorem final_apply (v : FVec Ideal S8x1024 .f32) (y : S1x1.Idx) :
    (broadcast S1x1 (extractAt ![0, 0, 0]
      (shapeCast S1x1x1 (multiReduction .add [1, 2] S1 (shapeCast S1x8x1024 v shapeCasts_S8x1024_S1x8x1024) 0x00000000#32
        reduces_S1x8x1024_S1 (.inl rfl) rfl) shapeCasts_S1_S1x1x1) inpos_S1x1x1_p0_0_0) : FVec Ideal S1x1 .f32) y = tot v := by
  show multiReduction .add [1, 2] S1 (shapeCast S1x8x1024 v shapeCasts_S8x1024_S1x8x1024) 0x00000000#32
      reduces_S1x8x1024_S1 (.inl rfl) rfl (Shape.reshapeEquiv shapeCasts_S1_S1x1x1 _) = tot v
  refine (Ideal.multiReduction_add_total _ _ _ (fun b => by match b with | ⟨0, _⟩ => rfl) _ _ _).trans ?_
  unfold tot shapeCast
  exact Equiv.sum_comp (Shape.reshapeEquiv shapeCasts_S8x1024_S1x8x1024) v

/-- The body's last step: the remaining additions of 8×1024 vectors, then the sum of all entries of the result. -/
theorem k0_pay2_apply (a b1 b2 b3 b4 b5 b6 b7 b8 c : FVec Ideal S8x1024 .f32) (y : S1x1.Idx) :
    k0_pay2 (F := Ideal) a b1 b2 b3 b4 b5 b6 b7 b8 c y
      = tot (addf a (addf (addf (addf (addf b1 b2) (addf b3 b4)) (addf (addf b5 b6) (addf b7 b8))) c)) := by
  unfold k0_pay2
  rw [final_apply]

/-- The number the body stores: the ten tiles' block-sum trees, added in the body's order. -/
theorem out_total (y : S1x1.Idx) :
    out0_3 (F := Ideal) x0 x1 x2 y = (((((((((part (T00 x0 x1 x2) + part (T01 x0 x1 x2)) + part (T02 x0 x1 x2)) + part (T03 x0 x1 x2)) + part (T11 x0 x1 x2)) + part (T12 x0 x1 x2)) + part (T13 x0 x1 x2)) + part (T22 x0 x1 x2)) + part (T23 x0 x1 x2)) + part (T33 x0 x1 x2)) := by
  unfold out0_3
  rw [View.canon_unit_zero (funext fun a => by match a with | ⟨0, _⟩ => rfl | ⟨1, _⟩ => rfl), k0_pay2_apply]
  simp only [part, T00, T01, T02, T03, T11, T12, T13, T22, T23, T33, tree, tot_addf, tot_slice,
    Nat.reducePow, Nat.reduceAdd, Nat.reduceMul, zero_add,
    k0_pay1, k0_pay10, k0_pay11, k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61, k0_pay62, k0_pay63,
    k0_pay64, k0_pay65, k0_pay66, k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102, k0_pay103, k0_pay104, k0_pay105,
    k0_pay106, k0_pay107, k0_pay108, k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161,
    k0_pay162, k0_pay163, k0_pay164, k0_pay165, k0_pay166, k0_pay167, k0_pay168, k0_pay169, k0_pay170, k0_pay171, k0_pay172, k0_pay173, k0_pay174, k0_pay175,
    k0_pay176, k0_pay177, k0_pay178, k0_pay179, k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199, k0_pay200, k0_pay201, k0_pay202, k0_pay203,
    k0_pay204, k0_pay205, k0_pay206, k0_pay210, k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230, k0_pay231, k0_pay232, k0_pay233, k0_pay234,
    k0_pay235, k0_pay236, k0_pay237, k0_pay238, k0_pay239, k0_pay240, k0_pay241, k0_pay242, k0_pay243, k0_pay244, k0_pay245, k0_pay246, k0_pay247, k0_pay248,
    k0_pay249, k0_pay250, k0_pay251, k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273, k0_pay274, k0_pay275, k0_pay276,
    k0_pay277, k0_pay278, k0_pay279, k0_pay280, k0_pay281, k0_pay282, k0_pay283, k0_pay284, k0_pay285, k0_pay286, k0_pay287, k0_pay288, k0_pay289, k0_pay290,
    k0_pay291, k0_pay292, k0_pay293, k0_pay294, k0_pay295, k0_pay296, k0_pay297, k0_pay298, k0_pay299, k0_pay300, k0_pay301, k0_pay302, k0_pay303, k0_pay304,
    k0_pay305, k0_pay306, k0_pay307, k0_pay308, k0_pay309, k0_pay310, k0_pay311, k0_pay312, k0_pay313, k0_pay314, k0_pay315, k0_pay316, k0_pay317, k0_pay318,
    k0_pay319, k0_pay320, k0_pay321, k0_pay322, k0_pay323, k0_pay324, k0_pay325, k0_pay326, k0_pay327, k0_pay328, k0_pay329, k0_pay330, k0_pay331, k0_pay332,
    k0_pay333, k0_pay334, k0_pay335, k0_pay336, k0_pay337, k0_pay338, k0_pay339, k0_pay340, k0_pay341, k0_pay342, k0_pay343, k0_pay344, k0_pay345, k0_pay346,
    k0_pay347, k0_pay348, k0_pay349, k0_pay350, k0_pay351, k0_pay352, k0_pay353, k0_pay354, k0_pay355, k0_pay356, k0_pay357, k0_pay358, k0_pay359, k0_pay360,
    k0_pay361, k0_pay362, k0_pay363, k0_pay364, k0_pay365, k0_pay366, k0_pay367, k0_pay368, k0_pay369, k0_pay370, k0_pay371, k0_pay372, k0_pay373, k0_pay374,
    k0_pay375, k0_pay376, k0_pay377, k0_pay378, k0_pay379, k0_pay380, k0_pay381, k0_pay382, k0_pay383, k0_pay384, k0_pay385, k0_pay386, k0_pay387, k0_pay388,
    k0_pay389, k0_pay390, k0_pay391, k0_pay392, k0_pay393, k0_pay394, k0_pay395, k0_pay396, k0_pay397, k0_pay398, k0_pay399, k0_pay400, k0_pay401, k0_pay402,
    k0_pay403, k0_pay404, k0_pay405, k0_pay406, k0_pay408, k0_pay409, k0_pay410, k0_pay411, k0_pay412, k0_pay413, k0_pay414, k0_pay415, k0_pay416, k0_pay417,
    k0_pay418, k0_pay419, k0_pay420, k0_pay421, k0_pay422, k0_pay423, k0_pay424, k0_pay425, k0_pay426, k0_pay427, k0_pay428, k0_pay429, k0_pay430, k0_pay431,
    k0_pay432, k0_pay433, k0_pay434, k0_pay435, k0_pay436, k0_pay437, k0_pay438, k0_pay439, k0_pay440, k0_pay441, k0_pay442, k0_pay443, k0_pay444, k0_pay445,
    k0_pay446, k0_pay447, k0_pay448, k0_pay449, k0_pay450, k0_pay451, k0_pay452, k0_pay453, k0_pay454, k0_pay455, k0_pay456, k0_pay457, k0_pay458, k0_pay459,
    k0_pay460, k0_pay461, k0_pay462, k0_pay463, k0_pay464, k0_pay465, k0_pay466, k0_pay467, k0_pay468, k0_pay469, k0_pay470, k0_pay471, k0_pay472, k0_pay473,
    k0_pay474, k0_pay475, k0_pay476, k0_pay477, k0_pay478, k0_pay479, k0_pay480, k0_pay481, k0_pay482, k0_pay483, k0_pay484, k0_pay485, k0_pay486, k0_pay487,
    k0_pay488, k0_pay489, k0_pay490, k0_pay491, k0_pay492, k0_pay493, k0_pay494, k0_pay495, k0_pay496, k0_pay497, k0_pay498, k0_pay499, k0_pay500, k0_pay501,
    k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529,
    k0_pay530, k0_pay531, k0_pay532, k0_pay533, k0_pay534, k0_pay535, k0_pay536, k0_pay537, k0_pay538, k0_pay539, k0_pay540, k0_pay541, k0_pay542, k0_pay543,
    k0_pay544, k0_pay545, k0_pay546, k0_pay547, k0_pay548, k0_pay549, k0_pay550, k0_pay551, k0_pay552, k0_pay553, k0_pay554, k0_pay555, k0_pay556, k0_pay557,
    k0_pay558, k0_pay559, k0_pay560, k0_pay561, k0_pay562, k0_pay563, k0_pay564, k0_pay565, k0_pay566, k0_pay567, k0_pay568, k0_pay569, k0_pay570, k0_pay571,
    k0_pay572, k0_pay573, k0_pay574, k0_pay575, k0_pay576, k0_pay577, k0_pay578, k0_pay579, k0_pay580, k0_pay581, k0_pay582, k0_pay583, k0_pay584, k0_pay585,
    k0_pay586, k0_pay587, k0_pay588, k0_pay589, k0_pay590, k0_pay591, k0_pay592, k0_pay593, k0_pay594, k0_pay595, k0_pay596, k0_pay597, k0_pay598, k0_pay599,
    k0_pay600, k0_pay601, k0_pay602, k0_pay603, k0_pay604, k0_pay606, k0_pay607, k0_pay608, k0_pay609, k0_pay610, k0_pay611, k0_pay612, k0_pay613, k0_pay614,
    k0_pay615, k0_pay616, k0_pay617, k0_pay618, k0_pay619, k0_pay620, k0_pay621, k0_pay622, k0_pay623, k0_pay624, k0_pay625, k0_pay626, k0_pay627, k0_pay628,
    k0_pay629, k0_pay630, k0_pay631, k0_pay632, k0_pay633, k0_pay634, k0_pay635, k0_pay636, k0_pay637, k0_pay638, k0_pay639, k0_pay640, k0_pay641, k0_pay642,
    k0_pay643, k0_pay644, k0_pay645, k0_pay646, k0_pay647, k0_pay648, k0_pay649, k0_pay650, k0_pay651, k0_pay652, k0_pay653, k0_pay654, k0_pay655, k0_pay656,
    k0_pay657, k0_pay658, k0_pay659, k0_pay660, k0_pay661, k0_pay662, k0_pay663, k0_pay664, k0_pay665, k0_pay666, k0_pay667, k0_pay668, k0_pay669, k0_pay670,
    k0_pay671, k0_pay672, k0_pay673, k0_pay674, k0_pay675, k0_pay676, k0_pay677, k0_pay678, k0_pay679, k0_pay680, k0_pay681, k0_pay682, k0_pay683, k0_pay684,
    k0_pay685, k0_pay686, k0_pay687, k0_pay688, k0_pay689, k0_pay690, k0_pay691, k0_pay692, k0_pay693, k0_pay694, k0_pay695, k0_pay696, k0_pay697, k0_pay698,
    k0_pay699, k0_pay700, k0_pay701, k0_pay702, k0_pay703, k0_pay704, k0_pay705, k0_pay706, k0_pay707, k0_pay708, k0_pay709, k0_pay710, k0_pay711, k0_pay712,
    k0_pay713, k0_pay714, k0_pay715, k0_pay716, k0_pay717, k0_pay718, k0_pay719, k0_pay720, k0_pay721, k0_pay722, k0_pay723, k0_pay724, k0_pay725, k0_pay726,
    k0_pay727, k0_pay728, k0_pay729, k0_pay730, k0_pay731, k0_pay732, k0_pay733, k0_pay734, k0_pay735, k0_pay736, k0_pay737, k0_pay738, k0_pay739, k0_pay740,
    k0_pay741, k0_pay742, k0_pay743, k0_pay744, k0_pay745, k0_pay746, k0_pay747, k0_pay748, k0_pay749, k0_pay750, k0_pay751, k0_pay752, k0_pay753, k0_pay754,
    k0_pay755, k0_pay756, k0_pay757, k0_pay758, k0_pay759, k0_pay760, k0_pay761, k0_pay762, k0_pay763, k0_pay764, k0_pay765, k0_pay766, k0_pay767, k0_pay768,
    k0_pay769, k0_pay770, k0_pay771, k0_pay772, k0_pay773, k0_pay774, k0_pay775, k0_pay776, k0_pay777, k0_pay778, k0_pay779, k0_pay780, k0_pay781, k0_pay782,
    k0_pay783, k0_pay784, k0_pay785, k0_pay786, k0_pay787, k0_pay788, k0_pay789, k0_pay790, k0_pay791, k0_pay792, k0_pay793, k0_pay794, k0_pay795, k0_pay796,
    k0_pay797, k0_pay798, k0_pay799, k0_pay800, k0_pay801, k0_pay802, k0_pay805, k0_pay806, k0_pay807, k0_pay808, k0_pay809, k0_pay810, k0_pay811, k0_pay812,
    k0_pay813, k0_pay814, k0_pay815, k0_pay816, k0_pay817, k0_pay818, k0_pay819, k0_pay820, k0_pay821, k0_pay822, k0_pay823, k0_pay824, k0_pay825, k0_pay826,
    k0_pay827, k0_pay828, k0_pay829, k0_pay830, k0_pay831, k0_pay832, k0_pay833, k0_pay834, k0_pay835, k0_pay836, k0_pay837, k0_pay838, k0_pay839, k0_pay840,
    k0_pay841, k0_pay842, k0_pay843, k0_pay844, k0_pay845, k0_pay846, k0_pay847, k0_pay848, k0_pay849, k0_pay850, k0_pay851, k0_pay852, k0_pay853, k0_pay854,
    k0_pay855, k0_pay856, k0_pay857, k0_pay858, k0_pay859, k0_pay860, k0_pay861, k0_pay862, k0_pay863, k0_pay864, k0_pay865, k0_pay866, k0_pay867, k0_pay868,
    k0_pay869, k0_pay870, k0_pay871, k0_pay872, k0_pay873, k0_pay874, k0_pay875, k0_pay876, k0_pay877, k0_pay878, k0_pay879, k0_pay880, k0_pay881, k0_pay882,
    k0_pay883, k0_pay884, k0_pay885, k0_pay886, k0_pay887, k0_pay888, k0_pay889, k0_pay890, k0_pay891, k0_pay892, k0_pay893, k0_pay894, k0_pay895, k0_pay896,
    k0_pay897, k0_pay898, k0_pay899, k0_pay900, k0_pay901, k0_pay902, k0_pay903, k0_pay904, k0_pay905, k0_pay906, k0_pay907, k0_pay908, k0_pay909, k0_pay910,
    k0_pay911, k0_pay912, k0_pay913, k0_pay914, k0_pay915, k0_pay916, k0_pay917, k0_pay918, k0_pay919, k0_pay920, k0_pay921, k0_pay922, k0_pay923, k0_pay924,
    k0_pay925, k0_pay926, k0_pay927, k0_pay928, k0_pay929, k0_pay930, k0_pay931, k0_pay932, k0_pay933, k0_pay934, k0_pay935, k0_pay936, k0_pay937, k0_pay938,
    k0_pay939, k0_pay940, k0_pay941, k0_pay942, k0_pay943, k0_pay944, k0_pay945, k0_pay946, k0_pay947, k0_pay948, k0_pay949, k0_pay950, k0_pay951, k0_pay952,
    k0_pay953, k0_pay954, k0_pay955, k0_pay956, k0_pay957, k0_pay958, k0_pay959, k0_pay960, k0_pay961, k0_pay962, k0_pay963, k0_pay964, k0_pay965, k0_pay966,
    k0_pay967, k0_pay968, k0_pay969, k0_pay970, k0_pay971, k0_pay972, k0_pay973, k0_pay974, k0_pay975, k0_pay976, k0_pay977, k0_pay978, k0_pay979, k0_pay980,
    k0_pay981, k0_pay982, k0_pay983, k0_pay984, k0_pay985, k0_pay986, k0_pay987, k0_pay988, k0_pay989, k0_pay990, k0_pay991, k0_pay992, k0_pay993, k0_pay994,
    k0_pay995, k0_pay996, k0_pay997, k0_pay998, k0_pay999, k0_pay1000, k0_pay1001, k0_pay1005, k0_pay1006, k0_pay1007, k0_pay1008, k0_pay1009, k0_pay1010, k0_pay1011,
    k0_pay1012, k0_pay1013, k0_pay1014, k0_pay1015, k0_pay1016, k0_pay1017, k0_pay1018, k0_pay1019, k0_pay1020, k0_pay1021, k0_pay1022, k0_pay1023, k0_pay1024, k0_pay1025,
    k0_pay1026, k0_pay1027, k0_pay1028, k0_pay1029, k0_pay1030, k0_pay1031, k0_pay1032, k0_pay1033, k0_pay1034, k0_pay1035, k0_pay1036, k0_pay1037, k0_pay1038, k0_pay1039,
    k0_pay1040, k0_pay1041, k0_pay1042, k0_pay1043, k0_pay1044, k0_pay1045, k0_pay1046, k0_pay1047, k0_pay1048, k0_pay1049, k0_pay1050, k0_pay1051, k0_pay1052, k0_pay1053,
    k0_pay1054, k0_pay1055, k0_pay1056, k0_pay1057, k0_pay1058, k0_pay1059, k0_pay1060, k0_pay1061, k0_pay1062, k0_pay1063, k0_pay1064, k0_pay1065, k0_pay1066, k0_pay1067,
    k0_pay1068, k0_pay1069, k0_pay1070, k0_pay1071, k0_pay1072, k0_pay1073, k0_pay1074, k0_pay1075, k0_pay1076, k0_pay1077, k0_pay1078, k0_pay1079, k0_pay1080, k0_pay1081,
    k0_pay1082, k0_pay1083, k0_pay1084, k0_pay1085, k0_pay1086, k0_pay1087, k0_pay1088, k0_pay1089, k0_pay1090, k0_pay1091, k0_pay1092, k0_pay1093, k0_pay1094, k0_pay1095,
    k0_pay1096, k0_pay1097, k0_pay1098, k0_pay1099, k0_pay1100, k0_pay1101, k0_pay1102, k0_pay1103, k0_pay1104, k0_pay1105, k0_pay1106, k0_pay1107, k0_pay1108, k0_pay1109,
    k0_pay1110, k0_pay1111, k0_pay1112, k0_pay1113, k0_pay1114, k0_pay1115, k0_pay1116, k0_pay1117, k0_pay1118, k0_pay1119, k0_pay1120, k0_pay1121, k0_pay1122, k0_pay1123,
    k0_pay1124, k0_pay1125, k0_pay1126, k0_pay1127, k0_pay1128, k0_pay1129, k0_pay1130, k0_pay1131, k0_pay1132, k0_pay1133, k0_pay1134, k0_pay1135, k0_pay1136, k0_pay1137,
    k0_pay1138, k0_pay1139, k0_pay1140, k0_pay1141, k0_pay1142, k0_pay1143, k0_pay1144, k0_pay1145, k0_pay1146, k0_pay1147, k0_pay1148, k0_pay1149, k0_pay1150, k0_pay1151,
    k0_pay1152, k0_pay1153, k0_pay1154, k0_pay1155, k0_pay1156, k0_pay1157, k0_pay1158, k0_pay1159, k0_pay1160, k0_pay1161, k0_pay1162, k0_pay1163, k0_pay1164, k0_pay1165,
    k0_pay1166, k0_pay1167, k0_pay1168, k0_pay1169, k0_pay1170, k0_pay1171, k0_pay1172, k0_pay1173, k0_pay1174, k0_pay1175, k0_pay1176, k0_pay1177, k0_pay1178, k0_pay1179,
    k0_pay1180, k0_pay1181, k0_pay1182, k0_pay1183, k0_pay1184, k0_pay1185, k0_pay1186, k0_pay1187, k0_pay1188, k0_pay1189, k0_pay1190, k0_pay1191, k0_pay1192, k0_pay1193,
    k0_pay1194, k0_pay1195, k0_pay1196, k0_pay1197, k0_pay1198, k0_pay1199, k0_pay1200, k0_pay1201, k0_pay1203, k0_pay1204, k0_pay1205, k0_pay1206, k0_pay1207, k0_pay1208,
    k0_pay1209, k0_pay1210, k0_pay1211, k0_pay1212, k0_pay1213, k0_pay1214, k0_pay1215, k0_pay1216, k0_pay1217, k0_pay1218, k0_pay1219, k0_pay1220, k0_pay1221, k0_pay1222,
    k0_pay1223, k0_pay1224, k0_pay1225, k0_pay1226, k0_pay1227, k0_pay1228, k0_pay1229, k0_pay1230, k0_pay1231, k0_pay1232, k0_pay1233, k0_pay1234, k0_pay1235, k0_pay1236,
    k0_pay1237, k0_pay1238, k0_pay1239, k0_pay1240, k0_pay1241, k0_pay1242, k0_pay1243, k0_pay1244, k0_pay1245, k0_pay1246, k0_pay1247, k0_pay1248, k0_pay1249, k0_pay1250,
    k0_pay1251, k0_pay1252, k0_pay1253, k0_pay1254, k0_pay1255, k0_pay1256, k0_pay1257, k0_pay1258, k0_pay1259, k0_pay1260, k0_pay1261, k0_pay1262, k0_pay1263, k0_pay1264,
    k0_pay1265, k0_pay1266, k0_pay1267, k0_pay1268, k0_pay1269, k0_pay1270, k0_pay1271, k0_pay1272, k0_pay1273, k0_pay1274, k0_pay1275, k0_pay1276, k0_pay1277, k0_pay1278,
    k0_pay1279, k0_pay1280, k0_pay1281, k0_pay1282, k0_pay1283, k0_pay1284, k0_pay1285, k0_pay1286, k0_pay1287, k0_pay1288, k0_pay1289, k0_pay1290, k0_pay1291, k0_pay1292,
    k0_pay1293, k0_pay1294, k0_pay1295, k0_pay1296, k0_pay1297, k0_pay1298, k0_pay1299, k0_pay1300, k0_pay1301, k0_pay1302, k0_pay1303, k0_pay1304, k0_pay1305, k0_pay1306,
    k0_pay1307, k0_pay1308, k0_pay1309, k0_pay1310, k0_pay1311, k0_pay1312, k0_pay1313, k0_pay1314, k0_pay1315, k0_pay1316, k0_pay1317, k0_pay1318, k0_pay1319, k0_pay1320,
    k0_pay1321, k0_pay1322, k0_pay1323, k0_pay1324, k0_pay1325, k0_pay1326, k0_pay1327, k0_pay1328, k0_pay1329, k0_pay1330, k0_pay1331, k0_pay1332, k0_pay1333, k0_pay1334,
    k0_pay1335, k0_pay1336, k0_pay1337, k0_pay1338, k0_pay1339, k0_pay1340, k0_pay1341, k0_pay1342, k0_pay1343, k0_pay1344, k0_pay1345, k0_pay1346, k0_pay1347, k0_pay1348,
    k0_pay1349, k0_pay1350, k0_pay1351, k0_pay1352, k0_pay1353, k0_pay1354, k0_pay1355, k0_pay1356, k0_pay1357, k0_pay1358, k0_pay1359, k0_pay1360, k0_pay1361, k0_pay1362,
    k0_pay1363, k0_pay1364, k0_pay1365, k0_pay1366, k0_pay1367, k0_pay1368, k0_pay1369, k0_pay1370, k0_pay1371, k0_pay1372, k0_pay1373, k0_pay1374, k0_pay1375, k0_pay1376,
    k0_pay1377, k0_pay1378, k0_pay1379, k0_pay1380, k0_pay1381, k0_pay1382, k0_pay1383, k0_pay1384, k0_pay1385, k0_pay1386, k0_pay1387, k0_pay1388, k0_pay1389, k0_pay1390,
    k0_pay1391, k0_pay1392, k0_pay1393, k0_pay1394, k0_pay1395, k0_pay1396, k0_pay1397, k0_pay1398, k0_pay1399, k0_pay1401, k0_pay1402, k0_pay1403, k0_pay1404, k0_pay1405,
    k0_pay1406, k0_pay1407, k0_pay1408, k0_pay1409, k0_pay1410, k0_pay1411, k0_pay1412, k0_pay1413, k0_pay1414, k0_pay1415, k0_pay1416, k0_pay1417, k0_pay1418, k0_pay1419,
    k0_pay1420, k0_pay1421, k0_pay1422, k0_pay1423, k0_pay1424, k0_pay1425, k0_pay1426, k0_pay1427, k0_pay1428, k0_pay1429, k0_pay1430, k0_pay1431, k0_pay1432, k0_pay1433,
    k0_pay1434, k0_pay1435, k0_pay1436, k0_pay1437, k0_pay1438, k0_pay1439, k0_pay1440, k0_pay1441, k0_pay1442, k0_pay1443, k0_pay1444, k0_pay1445, k0_pay1446, k0_pay1447,
    k0_pay1448, k0_pay1449, k0_pay1450, k0_pay1451, k0_pay1452, k0_pay1453, k0_pay1454, k0_pay1455, k0_pay1456, k0_pay1457, k0_pay1458, k0_pay1459, k0_pay1460, k0_pay1461,
    k0_pay1462, k0_pay1463, k0_pay1464, k0_pay1465, k0_pay1466, k0_pay1467, k0_pay1468, k0_pay1469, k0_pay1470, k0_pay1471, k0_pay1472, k0_pay1473, k0_pay1474, k0_pay1475,
    k0_pay1476, k0_pay1477, k0_pay1478, k0_pay1479, k0_pay1480, k0_pay1481, k0_pay1482, k0_pay1483, k0_pay1484, k0_pay1485, k0_pay1486, k0_pay1487, k0_pay1488, k0_pay1489,
    k0_pay1490, k0_pay1491, k0_pay1492, k0_pay1493, k0_pay1494, k0_pay1495, k0_pay1496, k0_pay1497, k0_pay1498, k0_pay1499, k0_pay1500, k0_pay1501, k0_pay1502, k0_pay1503,
    k0_pay1504, k0_pay1505, k0_pay1506, k0_pay1507, k0_pay1508, k0_pay1509, k0_pay1510, k0_pay1511, k0_pay1512, k0_pay1513, k0_pay1514, k0_pay1515, k0_pay1516, k0_pay1517,
    k0_pay1518, k0_pay1519, k0_pay1520, k0_pay1521, k0_pay1522, k0_pay1523, k0_pay1524, k0_pay1525, k0_pay1526, k0_pay1527, k0_pay1528, k0_pay1529, k0_pay1530, k0_pay1531,
    k0_pay1532, k0_pay1533, k0_pay1534, k0_pay1535, k0_pay1536, k0_pay1537, k0_pay1538, k0_pay1539, k0_pay1540, k0_pay1541, k0_pay1542, k0_pay1543, k0_pay1544, k0_pay1545,
    k0_pay1546, k0_pay1547, k0_pay1548, k0_pay1549, k0_pay1550, k0_pay1551, k0_pay1552, k0_pay1553, k0_pay1554, k0_pay1555, k0_pay1556, k0_pay1557, k0_pay1558, k0_pay1559,
    k0_pay1560, k0_pay1561, k0_pay1562, k0_pay1563, k0_pay1564, k0_pay1565, k0_pay1566, k0_pay1567, k0_pay1568, k0_pay1569, k0_pay1570, k0_pay1571, k0_pay1572, k0_pay1573,
    k0_pay1574, k0_pay1575, k0_pay1576, k0_pay1577, k0_pay1578, k0_pay1579, k0_pay1580, k0_pay1581, k0_pay1582, k0_pay1583, k0_pay1584, k0_pay1585, k0_pay1586, k0_pay1587,
    k0_pay1588, k0_pay1589, k0_pay1590, k0_pay1591, k0_pay1592, k0_pay1593, k0_pay1594, k0_pay1595, k0_pay1596, k0_pay1597, k0_pay1599, k0_pay1600, k0_pay1601, k0_pay1602,
    k0_pay1603, k0_pay1604, k0_pay1605, k0_pay1606, k0_pay1607, k0_pay1608, k0_pay1609, k0_pay1610, k0_pay1611, k0_pay1612, k0_pay1613, k0_pay1614, k0_pay1615, k0_pay1616,
    k0_pay1617, k0_pay1618, k0_pay1619, k0_pay1620, k0_pay1621, k0_pay1622, k0_pay1623, k0_pay1624, k0_pay1625, k0_pay1626, k0_pay1627, k0_pay1628, k0_pay1629, k0_pay1630,
    k0_pay1631, k0_pay1632, k0_pay1633, k0_pay1634, k0_pay1635, k0_pay1636, k0_pay1637, k0_pay1638, k0_pay1639, k0_pay1640, k0_pay1641, k0_pay1642, k0_pay1643, k0_pay1644,
    k0_pay1645, k0_pay1646, k0_pay1647, k0_pay1648, k0_pay1649, k0_pay1650, k0_pay1651, k0_pay1652, k0_pay1653, k0_pay1654, k0_pay1655, k0_pay1656, k0_pay1657, k0_pay1658,
    k0_pay1659, k0_pay1660, k0_pay1661, k0_pay1662, k0_pay1663, k0_pay1664, k0_pay1665, k0_pay1666, k0_pay1667, k0_pay1668, k0_pay1669, k0_pay1670, k0_pay1671, k0_pay1672,
    k0_pay1673, k0_pay1674, k0_pay1675, k0_pay1676, k0_pay1677, k0_pay1678, k0_pay1679, k0_pay1680, k0_pay1681, k0_pay1682, k0_pay1683, k0_pay1684, k0_pay1685, k0_pay1686,
    k0_pay1687, k0_pay1688, k0_pay1689, k0_pay1690, k0_pay1691, k0_pay1692, k0_pay1693, k0_pay1694, k0_pay1695, k0_pay1696, k0_pay1697, k0_pay1698, k0_pay1699, k0_pay1700,
    k0_pay1701, k0_pay1702, k0_pay1703, k0_pay1704, k0_pay1705, k0_pay1706, k0_pay1707, k0_pay1708, k0_pay1709, k0_pay1710, k0_pay1711, k0_pay1712, k0_pay1713, k0_pay1714,
    k0_pay1715, k0_pay1716, k0_pay1717, k0_pay1718, k0_pay1719, k0_pay1720, k0_pay1721, k0_pay1722, k0_pay1723, k0_pay1724, k0_pay1725, k0_pay1726, k0_pay1727, k0_pay1728,
    k0_pay1729, k0_pay1730, k0_pay1731, k0_pay1732, k0_pay1733, k0_pay1734, k0_pay1735, k0_pay1736, k0_pay1737, k0_pay1738, k0_pay1739, k0_pay1740, k0_pay1741, k0_pay1742,
    k0_pay1743, k0_pay1744, k0_pay1745, k0_pay1746, k0_pay1747, k0_pay1748, k0_pay1749, k0_pay1750, k0_pay1751, k0_pay1752, k0_pay1753, k0_pay1754, k0_pay1755, k0_pay1756,
    k0_pay1757, k0_pay1758, k0_pay1759, k0_pay1760, k0_pay1761, k0_pay1762, k0_pay1763, k0_pay1764, k0_pay1765, k0_pay1766, k0_pay1767, k0_pay1768, k0_pay1769, k0_pay1770,
    k0_pay1771, k0_pay1772, k0_pay1773, k0_pay1774, k0_pay1775, k0_pay1776, k0_pay1777, k0_pay1778, k0_pay1779, k0_pay1780, k0_pay1781, k0_pay1782, k0_pay1783, k0_pay1784,
    k0_pay1785, k0_pay1786, k0_pay1787, k0_pay1788, k0_pay1789, k0_pay1790, k0_pay1791, k0_pay1792, k0_pay1793, k0_pay1794, k0_pay1795, k0_pay1799, k0_pay1800, k0_pay1801,
    k0_pay1802, k0_pay1803, k0_pay1804, k0_pay1805, k0_pay1806, k0_pay1807, k0_pay1808, k0_pay1809, k0_pay1810, k0_pay1811, k0_pay1812, k0_pay1813, k0_pay1814, k0_pay1815,
    k0_pay1816, k0_pay1817, k0_pay1818, k0_pay1819, k0_pay1820, k0_pay1821, k0_pay1822, k0_pay1823, k0_pay1824, k0_pay1825, k0_pay1826, k0_pay1827, k0_pay1828, k0_pay1829,
    k0_pay1830, k0_pay1831, k0_pay1832, k0_pay1833, k0_pay1834, k0_pay1835, k0_pay1836, k0_pay1837, k0_pay1838, k0_pay1839, k0_pay1840, k0_pay1841, k0_pay1842, k0_pay1843,
    k0_pay1844, k0_pay1845, k0_pay1846, k0_pay1847, k0_pay1848, k0_pay1849, k0_pay1850, k0_pay1851, k0_pay1852, k0_pay1853, k0_pay1854, k0_pay1855, k0_pay1856, k0_pay1857,
    k0_pay1858, k0_pay1859, k0_pay1860, k0_pay1861, k0_pay1862, k0_pay1863, k0_pay1864, k0_pay1865, k0_pay1866, k0_pay1867, k0_pay1868, k0_pay1869, k0_pay1870, k0_pay1871,
    k0_pay1872, k0_pay1873, k0_pay1874, k0_pay1875, k0_pay1876, k0_pay1877, k0_pay1878, k0_pay1879, k0_pay1880, k0_pay1881, k0_pay1882, k0_pay1883, k0_pay1884, k0_pay1885,
    k0_pay1886, k0_pay1887, k0_pay1888, k0_pay1889, k0_pay1890, k0_pay1891, k0_pay1892, k0_pay1893, k0_pay1894, k0_pay1895, k0_pay1896, k0_pay1897, k0_pay1898, k0_pay1899,
    k0_pay1900, k0_pay1901, k0_pay1902, k0_pay1903, k0_pay1904, k0_pay1905, k0_pay1906, k0_pay1907, k0_pay1908, k0_pay1909, k0_pay1910, k0_pay1911, k0_pay1912, k0_pay1913,
    k0_pay1914, k0_pay1915, k0_pay1916, k0_pay1917, k0_pay1918, k0_pay1919, k0_pay1920, k0_pay1921, k0_pay1922, k0_pay1923, k0_pay1924, k0_pay1925, k0_pay1926, k0_pay1927,
    k0_pay1928, k0_pay1929, k0_pay1930, k0_pay1931, k0_pay1932, k0_pay1933, k0_pay1934, k0_pay1935, k0_pay1936, k0_pay1937, k0_pay1938, k0_pay1939, k0_pay1940, k0_pay1941,
    k0_pay1942, k0_pay1943, k0_pay1944, k0_pay1945, k0_pay1946, k0_pay1947, k0_pay1948, k0_pay1949, k0_pay1950, k0_pay1951, k0_pay1952, k0_pay1953, k0_pay1954, k0_pay1955,
    k0_pay1956, k0_pay1957, k0_pay1958, k0_pay1959, k0_pay1960, k0_pay1961, k0_pay1962, k0_pay1963, k0_pay1964, k0_pay1965, k0_pay1966, k0_pay1967, k0_pay1968, k0_pay1969,
    k0_pay1970, k0_pay1971, k0_pay1972, k0_pay1973, k0_pay1974, k0_pay1975, k0_pay1976, k0_pay1977, k0_pay1978, k0_pay1979, k0_pay1980, k0_pay1981, k0_pay1982, k0_pay1983,
    k0_pay1984, k0_pay1985, k0_pay1986, k0_pay1987, k0_pay1988, k0_pay1989, k0_pay1990, k0_pay1991, k0_pay1992, k0_pay1993, k0_pay1994, k0_pay1995, k0_pay1996, k0_pay1997,
    k0_pay1998, k0_pay1999, k0_pay2000, k0_pay2001, k0_pay2002, k0_pay2003, k0_pay2004, k0_pay2005, k0_pay2006]

end Cert.KernelIdeal.KSum

end
-- ==== Proof.Tile.lean ====
/-
  One 1024×1024 tile of pair terms, as the kernel computes it from 1024 augmented rows `A` (one per row of the tile),
  1024 augmented rows `B` (one per column), and the two target vectors of the tile's rows and columns.

  Entry (r, c): the 256-term dot product of row r of `A` with row c of `B` is the squared distance d2; it is clamped
  below at the named constant, x = max d2 ε; the distance is x · x^(-1/2); the hinge is max (1 - distance) 0; the
  entry is x where the two targets agree and hinge² where they differ. A tile on the diagonal keeps only the entries
  strictly above its own diagonal (local column > local row) and holds zero elsewhere.
-/
import proofs.«179548_g20658792694316_retrytranche2_665_24_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.ValueIdx Cert.KernelIdeal Cert.KernelIdeal.Facts₀ Cert.KernelIdeal.Facts

/-- The clamp's constant. -/
abbrev epsK : Ideal .f32 := Named.named (F := Ideal) κ "inv_1000000000000000000000000000000" 0x0DA24260#32

/-- The clamped squared distances of a tile. -/
def clampD (A B : FVec Ideal S1024x256 .f32) : FVec Ideal S1024x1024 .f32 :=
  maximumf (matmul dot_S1024x256_S1024x256_S1024x1024_1_1_0_0_n_n none A B (constant S1024x1024 .f32 0x00000000#32))
    (broadcast S1024x1024 epsK)

/-- The hinge of the distance x · x^(-1/2). -/
def hinge (X : FVec Ideal S1024x1024 .f32) : FVec Ideal S1024x1024 .f32 :=
  maximumf (subf (broadcast S1024x1024 (Scalar.ofBits .f32 0x3F800000#32)) (mulf X (rsqrt X)))
    (broadcast S1024x1024 (Scalar.ofBits .f32 0x00000000#32))

/-- Where the row's target equals the column's. -/
def sameT (tr : Vec Ideal S1024x1 .i32) (tc : Vec Ideal S1x1024 .i32) : IVec S1024x1024 1 :=
  cmpi .eq (broadcastTo S1024x1024 (shapeCast S1024x1 tr shapeCasts_S1024x1_S1024x1) broadcasts_S1024x1_S1024x1024)
    (broadcastTo S1024x1024 (shapeCast S1x1024 tc shapeCasts_S1x1024_S1x1024) broadcasts_S1x1024_S1024x1024)

/-- A tile off the diagonal. -/
def tileOff (A B : FVec Ideal S1024x256 .f32) (tr : Vec Ideal S1024x1 .i32) (tc : Vec Ideal S1x1024 .i32) :
    FVec Ideal S1024x1024 .f32 :=
  select (sameT tr tc) (clampD A B) (mulf (hinge (clampD A B)) (hinge (clampD A B)))

/-- A tile on the diagonal: the same, kept strictly above the tile's own diagonal. -/
def tileDiag (A B : FVec Ideal S1024x256 .f32) (tr : Vec Ideal S1024x1 .i32) (tc : Vec Ideal S1x1024 .i32) :
    FVec Ideal S1024x1024 .f32 :=
  select (cmpi .sgt (iota .tc S1024x1024 32 [1] iota_S1024x1024_d1_w32) (iota .tc S1024x1024 32 [0] iota_S1024x1024_d0_w32))
    (tileOff A B tr tc) (broadcast S1024x1024 (Scalar.ofBits .f32 0x00000000#32))

/-- The contraction of the tile's dot product: both operands contract their axis 1 and keep their axis 0. -/
private abbrev D := dot_S1024x256_S1024x256_S1024x1024_1_1_0_0_n_n

private theorem lhs_0 (i : S1024x1024.Idx) (q : D.contr.Idx) : (D.lhsIdx i q 0).val = (i 0).val := by
  unfold DotDims.lhsIdx
  rw [dif_neg (show ¬(0 : Fin S1024x256.rank) ∈ D.lhsBatch by decide),
    dif_pos (show (0 : Fin S1024x256.rank) ∈ D.lhsNonContracting by decide)]
  rfl
private theorem lhs_1 (i : S1024x1024.Idx) (q : D.contr.Idx) : (D.lhsIdx i q 1).val = (q ⟨0, by decide⟩).val :=
  D.lhsIdx_val_of_single rfl i q
private theorem rhs_0 (i : S1024x1024.Idx) (q : D.contr.Idx) : (D.rhsIdx i q 0).val = (i 1).val := by
  unfold DotDims.rhsIdx
  rw [dif_neg (show ¬(0 : Fin S1024x256.rank) ∈ D.rhsBatch by decide),
    dif_pos (show (0 : Fin S1024x256.rank) ∈ D.rhsNonContracting by decide)]
  rfl
private theorem rhs_1 (i : S1024x1024.Idx) (q : D.contr.Idx) : (D.rhsIdx i q 1).val = (q ⟨0, by decide⟩).val :=
  D.rhsIdx_val_of_single rfl i q

/-- The clamped squared distance at (r, c): the dot product of the two augmented rows, clamped. -/
theorem clampD_apply (A B : FVec Ideal S1024x256 .f32) (r c : Fin 1024) :
    clampD A B (ix2 r c) = max (∑ k : Fin 256, A (ix2 r k) * B (ix2 c k)) epsK := by
  unfold clampD
  rw [maximumf_apply, broadcast_apply]
  refine congrArg (max · epsK) ?_
  simp only [matmul]
  refine (Ideal.matmul_constant_zero_apply _ _ _ _ _).trans ?_
  rw [← Equiv.sum_comp (ValueIdx.contrEquiv1 D 256 rfl rfl).symm]
  refine Finset.sum_congr rfl fun k _ => ?_
  have hk := ValueIdx.contrEquiv1_symm_val D 256 rfl rfl k
  have el : D.lhsIdx (ix2 r c) ((ValueIdx.contrEquiv1 D 256 rfl rfl).symm k) = ix2 r k :=
    funext fun a => Fin.ext (by
      match a with
      | ⟨0, _⟩ => exact lhs_0 _ _
      | ⟨1, _⟩ => exact (lhs_1 _ _).trans hk)
  have er : D.rhsIdx (ix2 r c) ((ValueIdx.contrEquiv1 D 256 rfl rfl).symm k) = ix2 c k :=
    funext fun a => Fin.ext (by
      match a with
      | ⟨0, _⟩ => exact rhs_0 _ _
      | ⟨1, _⟩ => exact (rhs_1 _ _).trans hk)
  rw [el, er]

/-- The hinge at an entry. -/
theorem hinge_apply (X : FVec Ideal S1024x1024 .f32) (i : S1024x1024.Idx) :
    hinge X i = max (Ideal.ofBits .f32 0x3F800000#32 - X i * Ideal.rsqrt (X i)) (Ideal.ofBits .f32 0x00000000#32) := by
  rfl

/-- The two targets compared at (r, c). -/
theorem sameT_apply (tr : Vec Ideal S1024x1 .i32) (tc : Vec Ideal S1x1024 .i32) (r c : Fin 1024) :
    sameT tr tc (ix2 r c) = 1#1 ↔ tr (ix2 r 0) = tc (ix2 0 c) := by
  unfold sameT
  rw [shapeCast_self, shapeCast_self]
  show IntOp.cmpi .eq (broadcastTo S1024x1024 tr broadcasts_S1024x1_S1024x1024 (ix2 r c))
      (broadcastTo S1024x1024 tc broadcasts_S1x1024_S1024x1024 (ix2 r c)) = 1#1 ↔ _
  rw [broadcastTo_apply tr broadcasts_S1024x1_S1024x1024 (ix2 r c) (ix2 r 0) (fun a => match a with
      | ⟨0, _⟩ => by show r.val = if (1024 : Nat) = 1 then 0 else r.val; rw [if_neg (by decide)]
      | ⟨1, _⟩ => by show (0 : Nat) = if (1 : Nat) = 1 then 0 else c.val; rw [if_pos rfl]),
    broadcastTo_apply tc broadcasts_S1x1024_S1024x1024 (ix2 r c) (ix2 0 c) (fun a => match a with
      | ⟨0, _⟩ => by show (0 : Nat) = if (1 : Nat) = 1 then 0 else r.val; rw [if_pos rfl]
      | ⟨1, _⟩ => by show c.val = if (1024 : Nat) = 1 then 0 else c.val; rw [if_neg (by decide)]),
    IntOp.cmpi_eq]

/-- An off-diagonal tile's entry. -/
theorem tileOff_apply (A B : FVec Ideal S1024x256 .f32) (tr : Vec Ideal S1024x1 .i32) (tc : Vec Ideal S1x1024 .i32)
    (r c : Fin 1024) :
    tileOff A B tr tc (ix2 r c)
      = if tr (ix2 r 0) = tc (ix2 0 c) then max (∑ k : Fin 256, A (ix2 r k) * B (ix2 c k)) epsK
        else
          max (Ideal.ofBits .f32 0x3F800000#32
                - max (∑ k : Fin 256, A (ix2 r k) * B (ix2 c k)) epsK
                  * Ideal.rsqrt (max (∑ k : Fin 256, A (ix2 r k) * B (ix2 c k)) epsK)) (Ideal.ofBits .f32 0x00000000#32)
          * max (Ideal.ofBits .f32 0x3F800000#32
                - max (∑ k : Fin 256, A (ix2 r k) * B (ix2 c k)) epsK
                  * Ideal.rsqrt (max (∑ k : Fin 256, A (ix2 r k) * B (ix2 c k)) epsK)) (Ideal.ofBits .f32 0x00000000#32) := by
  unfold tileOff
  rw [select_apply, mulf_apply, hinge_apply, clampD_apply]
  by_cases h : tr (ix2 r 0) = tc (ix2 0 c)
  · rw [if_pos h, (sameT_apply tr tc r c).mpr h, select_one]
  · rw [if_neg h, eq_zero_of_ne_one (fun h1 => h ((sameT_apply tr tc r c).mp h1)), select_zero]

/-- A 32-bit word written from a natural below 1024 reads back, signed, as that natural. -/
private theorem toInt_ofNat_small (n : Nat) (hn : n < 1024) : (BitVec.ofNat 32 n).toInt = (n : Int) := by
  have h1 : (BitVec.ofNat 32 n).toNat = n := by rw [BitVec.toNat_ofNat]; omega
  rw [BitVec.toInt_eq_toNat_of_lt (by omega), h1]

/-- A diagonal tile's entry: the off-diagonal entry strictly above the tile's diagonal, zero elsewhere. -/
theorem tileDiag_apply (A B : FVec Ideal S1024x256 .f32) (tr : Vec Ideal S1024x1 .i32) (tc : Vec Ideal S1x1024 .i32)
    (r c : Fin 1024) :
    tileDiag A B tr tc (ix2 r c) = if r < c then tileOff A B tr tc (ix2 r c) else Ideal.ofBits .f32 0x00000000#32 := by
  unfold tileDiag
  rw [select_apply, broadcast_apply]
  show Scalar.select (IntOp.cmpi .sgt (iota .tc S1024x1024 32 [1] iota_S1024x1024_d1_w32 (ix2 r c))
      (iota .tc S1024x1024 32 [0] iota_S1024x1024_d0_w32 (ix2 r c))) _ _ = _
  rw [iota_single_apply, iota_single_apply]
  show Scalar.select (IntOp.cmpi .sgt (BitVec.ofNat 32 c.val) (BitVec.ofNat 32 r.val)) _ _ = _
  have hiff : IntOp.cmpi .sgt (BitVec.ofNat 32 c.val) (BitVec.ofNat 32 r.val) = 1#1 ↔ r < c := by
    rw [IntOp.cmpi_sgt, toInt_ofNat_small _ r.isLt, toInt_ofNat_small _ c.isLt, Fin.lt_def]
    exact Int.ofNat_lt
  by_cases h : r < c
  · rw [if_pos h, hiff.mpr h, select_one]
  · rw [if_neg h, eq_zero_of_ne_one (fun h1 => h (hiff.mp h1)), select_zero]
    rfl

end Cert.KernelIdeal.Tile

end
-- ==== Proof.KTile.lean ====
/-
  The ten tiles entry by entry, and the stored number as one sum over pairs. Tile (I, J) is computed from rows
  1024·I … 1024·I+1023 of the first augmented matrix, rows 1024·J … 1024·J+1023 of the second, and the matching
  slices of the two target vectors; its entry (r, c) is the kernel's pair term of the global pair
  (1024·I + r, 1024·J + c) — on a diagonal tile only strictly above the diagonal, zero elsewhere. The balanced tree
  over a tile's 128 eight-row block sums is the sum of all its entries; the ten tiles added in the body's order are
  the sum over all pairs i < j.
-/
import proofs.«179548_g20658792694316_retrytranche2_665_24_alg».proof.Proof.KSum
import proofs.«179548_g20658792694316_retrytranche2_665_24_alg».proof.Proof.Tile

set_option maxRecDepth 65536

noncomputable section

namespace Cert.KernelIdeal.KTile

open Idealize.ShloMosaic Idealize.ShloMosaic.ValueIdx Cert.KernelIdeal Cert.KernelIdeal.Gen
open Cert.Tot Cert.TileSum Cert.KernelIdeal.KSum Cert.KernelIdeal.Tile

variable (x0 : Vec Ideal S4096x128 .f32) (x1 : Vec Ideal S4096x1 .i32) (x2 : Vec Ideal S1x4096 .i32)

/-- The clamped squared distance of the pair (i, j): the dot product of augmented row i with augmented row j. -/
def dK (i j : Fin 4096) : EReal :=
  max (∑ k : Fin 256, k0_pay5 (F := Ideal) x0 (ix2 i k) * k0_pay6 (F := Ideal) x0 (ix2 j k)) epsK

/-- The kernel's term of the pair (i, j): the clamped squared distance where the targets agree, the squared hinge
    of the distance d · d^(-1/2) where they differ. -/
def kTerm (i j : Fin 4096) : EReal :=
  if x1 (ix2 i 0) = x2 (ix2 0 j) then dK x0 i j
  else
    max (Ideal.ofBits .f32 0x3F800000#32 - dK x0 i j * Ideal.rsqrt (dK x0 i j)) (Ideal.ofBits .f32 0x00000000#32)
      * max (Ideal.ofBits .f32 0x3F800000#32 - dK x0 i j * Ideal.rsqrt (dK x0 i j)) (Ideal.ofBits .f32 0x00000000#32)

theorem kTerm_congr {i i' j j' : Fin 4096} (hi : i = i') (hj : j = j') : kTerm x0 x1 x2 i j = kTerm x0 x1 x2 i' j' := by
  rw [hi, hj]

/-- The body loads the whole block of embeddings. -/
theorem ld_x0 : View.ld x0 r0_0 = x0 :=
  View.ld_unit_zero (funext fun a => by match a with | ⟨0, _⟩ => rfl | ⟨1, _⟩ => rfl) _ x0

/-- Rows [oI, oI+1024) against rows [oJ, oJ+1024): the tile's entry (r, c) is the pair term of (oI + r, oJ + c). -/
theorem off_entry (oI oJ : ℕ) (hI : oI + 1024 ≤ 4096) (hJ : oJ + 1024 ≤ 4096)
    (sA : S4096x256.Slices ![oI, 0] S1024x256) (sB : S4096x256.Slices ![oJ, 0] S1024x256)
    (inbR : ∀ a, (![oI, 0] : Fin 2 → ℕ) a + S1024x1.size a ≤ S4096x1.size a)
    (inbC : ∀ a, (![0, oJ] : Fin 2 → ℕ) a + S1x1024.size a ≤ S1x4096.size a) (r c : Fin 1024) :
    tileOff (extractStridedSlice S1024x256 ![oI, 0] (k0_pay5 (F := Ideal) x0) sA)
        (extractStridedSlice S1024x256 ![oJ, 0] (k0_pay6 (F := Ideal) x0) sB)
        (View.ld x1 (Rect.unit (s := S4096x1) ![oI, 0] S1024x1.size inbR))
        (View.ld x2 (Rect.unit (s := S1x4096) ![0, oJ] S1x1024.size inbC)) (ix2 r c)
      = kTerm x0 x1 x2 ⟨oI + r.val, by have := r.isLt; omega⟩ ⟨oJ + c.val, by have := c.isLt; omega⟩ := by
  have hr : oI + r.val < 4096 := by have := r.isLt; omega
  have hc : oJ + c.val < 4096 := by have := c.isLt; omega
  have eA : ∀ k : Fin 256, extractStridedSlice S1024x256 ![oI, 0] (k0_pay5 (F := Ideal) x0) sA (ix2 r k)
      = k0_pay5 (F := Ideal) x0 (ix2 ⟨oI + r.val, hr⟩ k) := fun k =>
    extractStridedSlice_apply ![oI, 0] _ sA (ix2 r k) (ix2 ⟨oI + r.val, hr⟩ k) fun a => by
      match a with
      | ⟨0, _⟩ => rfl
      | ⟨1, _⟩ => show k.val = 0 + k.val; omega
  have eB : ∀ k : Fin 256, extractStridedSlice S1024x256 ![oJ, 0] (k0_pay6 (F := Ideal) x0) sB (ix2 c k)
      = k0_pay6 (F := Ideal) x0 (ix2 ⟨oJ + c.val, hc⟩ k) := fun k =>
    extractStridedSlice_apply ![oJ, 0] _ sB (ix2 c k) (ix2 ⟨oJ + c.val, hc⟩ k) fun a => by
      match a with
      | ⟨0, _⟩ => rfl
      | ⟨1, _⟩ => show k.val = 0 + k.val; omega
  have eR : View.ld x1 (Rect.unit (s := S4096x1) ![oI, 0] S1024x1.size inbR) (ix2 r 0) = x1 (ix2 ⟨oI + r.val, hr⟩ 0) :=
    congrArg x1 (funext fun a => Fin.ext (by
      match a with
      | ⟨0, _⟩ => show oI + 1 * r.val = oI + r.val; omega
      | ⟨1, _⟩ => show 0 + 1 * 0 = 0; omega))
  have eC : View.ld x2 (Rect.unit (s := S1x4096) ![0, oJ] S1x1024.size inbC) (ix2 0 c) = x2 (ix2 0 ⟨oJ + c.val, hc⟩) :=
    congrArg x2 (funext fun a => Fin.ext (by
      match a with
      | ⟨0, _⟩ => show 0 + 1 * 0 = 0; omega
      | ⟨1, _⟩ => show oJ + 1 * c.val = oJ + c.val; omega))
  rw [tileOff_apply, eR, eC]
  simp only [eA, eB]
  rfl

/-- The balanced tree over a tile's 128 eight-row block sums is the sum of all the tile's entries. -/
theorem part_eq_sum (V : FVec Ideal S1024x1024 .f32) : part V = ∑ r : Fin 1024, ∑ c : Fin 1024, V (ix2 r c) := by
  unfold part
  have h := tree7_blocks (M := EReal) (rowN V)
  unfold blk
  rw [h]
  exact sum_rowN V

theorem T00_eq : T00 x0 x1 x2 = tileDiag (extractStridedSlice S1024x256 ![0, 0] (k0_pay5 (View.ld x0 r0_0)) slices_S4096x256_o0_0_S1024x256)
    (extractStridedSlice S1024x256 ![0, 0] (k0_pay6 (View.ld x0 r0_0)) slices_S4096x256_o0_0_S1024x256) (View.ld x1 r0_1) (View.ld x2 r0_2) := rfl

theorem T01_eq : T01 x0 x1 x2 = tileOff (extractStridedSlice S1024x256 ![0, 0] (k0_pay5 (View.ld x0 r0_0)) slices_S4096x256_o0_0_S1024x256)
    (extractStridedSlice S1024x256 ![1024, 0] (k0_pay6 (View.ld x0 r0_0)) slices_S4096x256_o1024_0_S1024x256) (View.ld x1 r0_1) (View.ld x2 r0_3) := rfl

theorem T02_eq : T02 x0 x1 x2 = tileOff (extractStridedSlice S1024x256 ![0, 0] (k0_pay5 (View.ld x0 r0_0)) slices_S4096x256_o0_0_S1024x256)
    (extractStridedSlice S1024x256 ![2048, 0] (k0_pay6 (View.ld x0 r0_0)) slices_S4096x256_o2048_0_S1024x256) (View.ld x1 r0_1) (View.ld x2 r0_4) := rfl

theorem T03_eq : T03 x0 x1 x2 = tileOff (extractStridedSlice S1024x256 ![0, 0] (k0_pay5 (View.ld x0 r0_0)) slices_S4096x256_o0_0_S1024x256)
    (extractStridedSlice S1024x256 ![3072, 0] (k0_pay6 (View.ld x0 r0_0)) slices_S4096x256_o3072_0_S1024x256) (View.ld x1 r0_1) (View.ld x2 r0_5) := rfl

theorem T11_eq : T11 x0 x1 x2 = tileDiag (extractStridedSlice S1024x256 ![1024, 0] (k0_pay5 (View.ld x0 r0_0)) slices_S4096x256_o1024_0_S1024x256)
    (extractStridedSlice S1024x256 ![1024, 0] (k0_pay6 (View.ld x0 r0_0)) slices_S4096x256_o1024_0_S1024x256) (View.ld x1 r0_6) (View.ld x2 r0_3) := rfl

theorem T12_eq : T12 x0 x1 x2 = tileOff (extractStridedSlice S1024x256 ![1024, 0] (k0_pay5 (View.ld x0 r0_0)) slices_S4096x256_o1024_0_S1024x256)
    (extractStridedSlice S1024x256 ![2048, 0] (k0_pay6 (View.ld x0 r0_0)) slices_S4096x256_o2048_0_S1024x256) (View.ld x1 r0_6) (View.ld x2 r0_4) := rfl

theorem T13_eq : T13 x0 x1 x2 = tileOff (extractStridedSlice S1024x256 ![1024, 0] (k0_pay5 (View.ld x0 r0_0)) slices_S4096x256_o1024_0_S1024x256)
    (extractStridedSlice S1024x256 ![3072, 0] (k0_pay6 (View.ld x0 r0_0)) slices_S4096x256_o3072_0_S1024x256) (View.ld x1 r0_6) (View.ld x2 r0_5) := rfl

theorem T22_eq : T22 x0 x1 x2 = tileDiag (extractStridedSlice S1024x256 ![2048, 0] (k0_pay5 (View.ld x0 r0_0)) slices_S4096x256_o2048_0_S1024x256)
    (extractStridedSlice S1024x256 ![2048, 0] (k0_pay6 (View.ld x0 r0_0)) slices_S4096x256_o2048_0_S1024x256) (View.ld x1 r0_7) (View.ld x2 r0_4) := rfl

theorem T23_eq : T23 x0 x1 x2 = tileOff (extractStridedSlice S1024x256 ![2048, 0] (k0_pay5 (View.ld x0 r0_0)) slices_S4096x256_o2048_0_S1024x256)
    (extractStridedSlice S1024x256 ![3072, 0] (k0_pay6 (View.ld x0 r0_0)) slices_S4096x256_o3072_0_S1024x256) (View.ld x1 r0_7) (View.ld x2 r0_5) := rfl

theorem T33_eq : T33 x0 x1 x2 = tileDiag (extractStridedSlice S1024x256 ![3072, 0] (k0_pay5 (View.ld x0 r0_0)) slices_S4096x256_o3072_0_S1024x256)
    (extractStridedSlice S1024x256 ![3072, 0] (k0_pay6 (View.ld x0 r0_0)) slices_S4096x256_o3072_0_S1024x256) (View.ld x1 r0_8) (View.ld x2 r0_5) := rfl

theorem T00_entry (r c : Fin 1024) : T00 x0 x1 x2 (ix2 r c) = if r < c then kTerm x0 x1 x2 (tileIdx 0 r) (tileIdx 0 c) else 0 := by
  rw [T00_eq, tileDiag_apply, Ideal.ofBits_zero_f32]
  refine if_congr Iff.rfl ?_ rfl
  rw [ld_x0]
  exact (off_entry x0 x1 x2 0 0 (by omega) (by omega) _ _ _ _ r c).trans (kTerm_congr x0 x1 x2 (Fin.ext (by simp [tileIdx])) (Fin.ext (by simp [tileIdx])))

theorem T01_entry (r c : Fin 1024) : T01 x0 x1 x2 (ix2 r c) = kTerm x0 x1 x2 (tileIdx 0 r) (tileIdx 1 c) := by
  rw [T01_eq, ld_x0]
  exact (off_entry x0 x1 x2 0 1024 (by omega) (by omega) _ _ _ _ r c).trans (kTerm_congr x0 x1 x2 (Fin.ext (by simp [tileIdx])) (Fin.ext (by simp [tileIdx])))

theorem T02_entry (r c : Fin 1024) : T02 x0 x1 x2 (ix2 r c) = kTerm x0 x1 x2 (tileIdx 0 r) (tileIdx 2 c) := by
  rw [T02_eq, ld_x0]
  exact (off_entry x0 x1 x2 0 2048 (by omega) (by omega) _ _ _ _ r c).trans (kTerm_congr x0 x1 x2 (Fin.ext (by simp [tileIdx])) (Fin.ext (by simp [tileIdx])))

theorem T03_entry (r c : Fin 1024) : T03 x0 x1 x2 (ix2 r c) = kTerm x0 x1 x2 (tileIdx 0 r) (tileIdx 3 c) := by
  rw [T03_eq, ld_x0]
  exact (off_entry x0 x1 x2 0 3072 (by omega) (by omega) _ _ _ _ r c).trans (kTerm_congr x0 x1 x2 (Fin.ext (by simp [tileIdx])) (Fin.ext (by simp [tileIdx])))

theorem T11_entry (r c : Fin 1024) : T11 x0 x1 x2 (ix2 r c) = if r < c then kTerm x0 x1 x2 (tileIdx 1 r) (tileIdx 1 c) else 0 := by
  rw [T11_eq, tileDiag_apply, Ideal.ofBits_zero_f32]
  refine if_congr Iff.rfl ?_ rfl
  rw [ld_x0]
  exact (off_entry x0 x1 x2 1024 1024 (by omega) (by omega) _ _ _ _ r c).trans (kTerm_congr x0 x1 x2 (Fin.ext (by simp [tileIdx])) (Fin.ext (by simp [tileIdx])))

theorem T12_entry (r c : Fin 1024) : T12 x0 x1 x2 (ix2 r c) = kTerm x0 x1 x2 (tileIdx 1 r) (tileIdx 2 c) := by
  rw [T12_eq, ld_x0]
  exact (off_entry x0 x1 x2 1024 2048 (by omega) (by omega) _ _ _ _ r c).trans (kTerm_congr x0 x1 x2 (Fin.ext (by simp [tileIdx])) (Fin.ext (by simp [tileIdx])))

theorem T13_entry (r c : Fin 1024) : T13 x0 x1 x2 (ix2 r c) = kTerm x0 x1 x2 (tileIdx 1 r) (tileIdx 3 c) := by
  rw [T13_eq, ld_x0]
  exact (off_entry x0 x1 x2 1024 3072 (by omega) (by omega) _ _ _ _ r c).trans (kTerm_congr x0 x1 x2 (Fin.ext (by simp [tileIdx])) (Fin.ext (by simp [tileIdx])))

theorem T22_entry (r c : Fin 1024) : T22 x0 x1 x2 (ix2 r c) = if r < c then kTerm x0 x1 x2 (tileIdx 2 r) (tileIdx 2 c) else 0 := by
  rw [T22_eq, tileDiag_apply, Ideal.ofBits_zero_f32]
  refine if_congr Iff.rfl ?_ rfl
  rw [ld_x0]
  exact (off_entry x0 x1 x2 2048 2048 (by omega) (by omega) _ _ _ _ r c).trans (kTerm_congr x0 x1 x2 (Fin.ext (by simp [tileIdx])) (Fin.ext (by simp [tileIdx])))

theorem T23_entry (r c : Fin 1024) : T23 x0 x1 x2 (ix2 r c) = kTerm x0 x1 x2 (tileIdx 2 r) (tileIdx 3 c) := by
  rw [T23_eq, ld_x0]
  exact (off_entry x0 x1 x2 2048 3072 (by omega) (by omega) _ _ _ _ r c).trans (kTerm_congr x0 x1 x2 (Fin.ext (by simp [tileIdx])) (Fin.ext (by simp [tileIdx])))

theorem T33_entry (r c : Fin 1024) : T33 x0 x1 x2 (ix2 r c) = if r < c then kTerm x0 x1 x2 (tileIdx 3 r) (tileIdx 3 c) else 0 := by
  rw [T33_eq, tileDiag_apply, Ideal.ofBits_zero_f32]
  refine if_congr Iff.rfl ?_ rfl
  rw [ld_x0]
  exact (off_entry x0 x1 x2 3072 3072 (by omega) (by omega) _ _ _ _ r c).trans (kTerm_congr x0 x1 x2 (Fin.ext (by simp [tileIdx])) (Fin.ext (by simp [tileIdx])))

theorem part_T00 : part (T00 x0 x1 x2) = diagTile (kTerm x0 x1 x2) 0 := by
  rw [part_eq_sum]; unfold diagTile
  exact Finset.sum_congr rfl fun r _ => Finset.sum_congr rfl fun c _ => T00_entry x0 x1 x2 r c

theorem part_T01 : part (T01 x0 x1 x2) = fullTile (kTerm x0 x1 x2) 0 1 := by
  rw [part_eq_sum]; unfold fullTile
  exact Finset.sum_congr rfl fun r _ => Finset.sum_congr rfl fun c _ => T01_entry x0 x1 x2 r c

theorem part_T02 : part (T02 x0 x1 x2) = fullTile (kTerm x0 x1 x2) 0 2 := by
  rw [part_eq_sum]; unfold fullTile
  exact Finset.sum_congr rfl fun r _ => Finset.sum_congr rfl fun c _ => T02_entry x0 x1 x2 r c

theorem part_T03 : part (T03 x0 x1 x2) = fullTile (kTerm x0 x1 x2) 0 3 := by
  rw [part_eq_sum]; unfold fullTile
  exact Finset.sum_congr rfl fun r _ => Finset.sum_congr rfl fun c _ => T03_entry x0 x1 x2 r c

theorem part_T11 : part (T11 x0 x1 x2) = diagTile (kTerm x0 x1 x2) 1 := by
  rw [part_eq_sum]; unfold diagTile
  exact Finset.sum_congr rfl fun r _ => Finset.sum_congr rfl fun c _ => T11_entry x0 x1 x2 r c

theorem part_T12 : part (T12 x0 x1 x2) = fullTile (kTerm x0 x1 x2) 1 2 := by
  rw [part_eq_sum]; unfold fullTile
  exact Finset.sum_congr rfl fun r _ => Finset.sum_congr rfl fun c _ => T12_entry x0 x1 x2 r c

theorem part_T13 : part (T13 x0 x1 x2) = fullTile (kTerm x0 x1 x2) 1 3 := by
  rw [part_eq_sum]; unfold fullTile
  exact Finset.sum_congr rfl fun r _ => Finset.sum_congr rfl fun c _ => T13_entry x0 x1 x2 r c

theorem part_T22 : part (T22 x0 x1 x2) = diagTile (kTerm x0 x1 x2) 2 := by
  rw [part_eq_sum]; unfold diagTile
  exact Finset.sum_congr rfl fun r _ => Finset.sum_congr rfl fun c _ => T22_entry x0 x1 x2 r c

theorem part_T23 : part (T23 x0 x1 x2) = fullTile (kTerm x0 x1 x2) 2 3 := by
  rw [part_eq_sum]; unfold fullTile
  exact Finset.sum_congr rfl fun r _ => Finset.sum_congr rfl fun c _ => T23_entry x0 x1 x2 r c

theorem part_T33 : part (T33 x0 x1 x2) = diagTile (kTerm x0 x1 x2) 3 := by
  rw [part_eq_sum]; unfold diagTile
  exact Finset.sum_congr rfl fun r _ => Finset.sum_congr rfl fun c _ => T33_entry x0 x1 x2 r c

/-- The number the body stores is the sum of the kernel's pair terms over all pairs i < j. -/
theorem out_eq (y : S1x1.Idx) :
    out0_3 (F := Ideal) x0 x1 x2 y = ∑ i : Fin 4096, ∑ j : Fin 4096, if i < j then kTerm x0 x1 x2 i j else 0 := by
  rw [out_total, sum_upper (kTerm x0 x1 x2), part_T00, part_T01, part_T02, part_T03, part_T11, part_T12, part_T13, part_T22,
    part_T23, part_T33]

end Cert.KernelIdeal.KTile

end
-- ==== Proof.KRun.lean ====
/-
  The kernel's run, read as a value. There is one grid point and every window's block is its whole array, so the
  body's three input blocks are the arrays the region finds: the embeddings as launched, and the target vector viewed
  as a 4096×1 column and as a 1×4096 row by the two host reshapes before the region. The one output block is the whole
  1×1 result array, and what the body leaves there is the sum of the pair terms over all pairs i < j; the host reshape
  after the region views that number as a scalar.
-/
import proofs.«179548_g20658792694316_retrytranche2_665_24_alg».proof.Proof.KTile
import Idealize.ShloMosaic.Lib.StableHlo.Run

set_option maxRecDepth 65536

noncomputable section

namespace Cert.KernelIdeal.KRun

open Idealize.ShloMosaic Idealize.ShloMosaic.TcCoe Idealize.ShloMosaic.ValueIdx Idealize.SL.Sem
open Cert.KernelIdeal Cert.KernelIdeal.Gen
open Cert.KernelIdeal.KTile
open Idealize.ShloMosaic.Pipeline (Dat)

variable (m : (ℓ : Loc nD τ sig) → Buf (Elt Ideal) ℓ) (ρ : Dev nD → PrngReg)

/-- The embeddings and the targets as launched on core c. -/
abbrev emb (c : Dev nD) : Vec Ideal S4096x128 .f32 := m ((c : Thread nD τ).loc main_arg0)
abbrev tgt (c : Dev nD) : Vec Ideal S4096 .i32 := m ((c : Thread nD τ).loc main_arg1)

/-- The target vector as a column and as a row. -/
abbrev tcol (c : Dev nD) : Vec Ideal S4096x1 .i32 := shapeCast S4096x1 (tgt m c) shapeCasts_S4096_S4096x1
abbrev trow (c : Dev nD) : Vec Ideal S1x4096 .i32 := shapeCast S1x4096 (tgt m c) shapeCasts_S4096_S1x4096

/-- The sum of the kernel's pair terms over all pairs i < j. -/
def kSum (c : Dev nD) : EReal :=
  ∑ i : Fin 4096, ∑ j : Fin 4096, if i < j then kTerm (emb m c) (tcol m c) (trow m c) i j else 0

/-- The printed index maps at the one grid point: every window sits at block 0 on both axes. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The two host reshapes before the region. -/
theorem V_col (c : Dev nD) : (V m c main_call0_v0 : S4096x1.Idx → BitVec 32) = tcol m c := by
  show StableHlo.after hostOps0 (fun b => m (c, b)) (Proc.devRef .tc main_call0_v0) = _
  after_results
  rfl
theorem V_row (c : Dev nD) : (V m c main_call0_v1 : S1x4096.Idx → BitVec 32) = trow m c := by
  show StableHlo.after hostOps0 (fun b => m (c, b)) (Proc.devRef .tc main_call0_v1) = _
  after_results
  rfl

/-- Each input window's block at the point is its whole array. -/
theorem iblk0 (c : Dev nD) (t : Fin cfg0.N) : iblk m c 0 t = emb m c := by
  obtain ⟨e0, e1, -⟩ := idx_facts t
  funext y
  unfold iblk
  show V m c main_arg0 (((cfg0.win 0).blk t).view.emb y) = _
  rw [V_main_arg0]
  refine congrArg (m ((c : Thread nD τ).loc main_arg0)) (funext fun a => Fin.ext ?_)
  match a with
  | ⟨0, _⟩ => show win0_0.index t (0 : Fin 2) * 4096 + 1 * (y 0).val = (y 0).val; omega
  | ⟨1, _⟩ => show win0_0.index t (1 : Fin 2) * 128 + 1 * (y 1).val = (y 1).val; omega
theorem iblk1 (c : Dev nD) (t : Fin cfg0.N) : iblk m c 1 t = tcol m c := by
  obtain ⟨-, -, e0, e1, -⟩ := idx_facts t
  funext y
  unfold iblk
  show V m c main_call0_v0 (((cfg0.win 1).blk t).view.emb y) = _
  rw [V_col]
  refine congrArg (tcol m c) (funext fun a => Fin.ext ?_)
  match a with
  | ⟨0, _⟩ => show win0_1.index t (0 : Fin 2) * 4096 + 1 * (y 0).val = (y 0).val; omega
  | ⟨1, _⟩ => show win0_1.index t (1 : Fin 2) * 1 + 1 * (y 1).val = (y 1).val; omega
theorem iblk2 (c : Dev nD) (t : Fin cfg0.N) : iblk m c 2 t = trow m c := by
  obtain ⟨-, -, -, -, e0, e1, -⟩ := idx_facts t
  funext y
  unfold iblk
  show V m c main_call0_v1 (((cfg0.win 2).blk t).view.emb y) = _
  rw [V_row]
  refine congrArg (trow m c) (funext fun a => Fin.ext ?_)
  match a with
  | ⟨0, _⟩ => show win0_2.index t (0 : Fin 2) * 1 + 1 * (y 0).val = (y 0).val; omega
  | ⟨1, _⟩ => show win0_2.index t (1 : Fin 2) * 4096 + 1 * (y 1).val = (y 1).val; omega

/-- What the point writes back is the 1×1 array holding the pair sum. -/
theorem flushed_eq (c : Dev nD) (t : Fin cfg0.N) :
    (dats m 0 c).flushed 3 t = ((cfg0.win 3).blk t).view.read (Elt Ideal) (fun _ => kSum m c) := by
  show (cfg0.win 3).cut (grid0.coords t) ((dats m 0 c).after 3 t) = _
  rw [after0_3, iblk0, iblk1, iblk2]
  funext y
  exact out_eq (emb m c) (tcol m c) (trow m c) y

/-- The one block covers the 1×1 array. -/
theorem cover (c : Dev nD) (i : S1x1.Idx) :
    ∃ t : Fin cfg0.N, (cfg0.win 3).flush t = true ∧ i ∈ ((cfg0.win 3).blk t).view.set := by
  refine ⟨t0_0, flush0_3 t0_0, ?_⟩
  obtain ⟨-, -, -, -, -, -, e0, e1⟩ := idx_facts t0_0
  show i ∈ ((View.whole main_call0_v2).slice (win0_3.rect t0_0)).set
  rw [View.set_slice_whole, Rect.mem_set_unit]
  intro a
  match a with
  | ⟨0, _⟩ =>
    show win0_3.index t0_0 (0 : Fin 2) * 1 ≤ (i 0).val ∧ (i 0).val < win0_3.index t0_0 (0 : Fin 2) * 1 + 1
    have h0 : (i 0).val < 1 := (i 0).isLt
    omega
  | ⟨1, _⟩ =>
    show win0_3.index t0_0 (1 : Fin 2) * 1 ≤ (i 1).val ∧ (i 1).val < win0_3.index t0_0 (1 : Fin 2) * 1 + 1
    have h1 : (i 1).val < 1 := (i 1).isLt
    omega

/-- The result array after the region. -/
theorem final (c : Dev nD) : (dats m 0 c).arrAt 3 cfg0.N = fun _ => kSum m c :=
  (dats m 0 c).arrAt_eq_of_cover 3 (fun _ => kSum m c) (fun t _ => flushed_eq m c t) (cover c)

/-- The run: the scalar result is the pair sum, and the two arguments end as launched. -/
theorem run : θ_run defs (onTc (τ := τ) (main (F := Ideal))) ⟨m, fun _ => 0, ρ⟩ fun r => ∀ c : Dev nD,
      r.2.mem ((c.tc : Thread nD τ).loc main_v0) = (fun _ => kSum m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v0 (Pipeline.mem_restRefs_of main_v0 (by decide) (by decide))).trans ?_
    unfold Pipeline.afterTail₀
    show StableHlo.after hostOps1 _ (Proc.devRef .tc main_v0) = _
    after_results
    rw [Pipeline.withArrays_arr spec0 launch0.win.arr_inj c _ _ 3, final]
    rfl
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.KRun

end
-- ==== Proof.Aug.lean ====
import proofs.«179548_g20658792694316_retrytranche2_665_24_alg».proof.Proof.Gen.KernelIdeal.Skeleton
import Idealize.ShloMosaic.Lib.Pipeline.Value
import Idealize.ShloMosaic.Lib.ValueIdx
import Idealize.ShloMosaic.PureOps.Ideal.Laws

noncomputable section

/-! The augmented rows. From the 4096×128 block of embeddings the program forms, for each row, its squared norm
    and its entry sum, and two 4096×256 matrices whose rows carry the embeddings (the second: minus two times them)
    in lanes 0–127 and two live extra lanes 128, 129, so that one 256-term dot product of a row of the first with a
    row of the second is the shifted squared distance of the two rows. The lemmas read each of these at an index. -/

namespace Cert.KernelIdeal.Aug

open Idealize.ShloMosaic Idealize.ShloMosaic.ValueIdx Cert.KernelIdeal Cert.KernelIdeal.Gen Cert.KernelIdeal.Facts₀ Cert.KernelIdeal.Facts

/-- A sum over the 128 lanes of a 4096×128 block, read at row `i`: the sum of that row's entries. -/
theorem laneSum_apply (src : FVec Ideal S4096x128 .f32) (h : S4096x128.Reduces [1] S4096) (hφ : FKind.Formats .f32)
    (hacc : (0x00000000#32 : BitVec 32) = FKind.add.neutral .f32 hφ) (i : Fin 4096) :
    multiReduction .add [1] S4096 src 0x00000000#32 h hφ hacc (ix1 i) = ∑ k : Fin 128, src (ix2 i k) := by
  refine (Ideal.multiReduction_add_single src 0x00000000#32 h hφ hacc (ix1 i)).trans ?_
  refine Finset.sum_congr rfl fun k _ => congrArg src ?_
  funext a
  match a with
  | ⟨0, _⟩ => exact Fin.ext rfl
  | ⟨1, _⟩ => exact Fin.ext rfl

/-- The column view [4096] → [4096, 1] read at (i, 0) is the vector at i. -/
theorem column_apply {α : Type} (x : S4096.Idx → α) (h : S4096.ShapeCasts S4096x1) (i : Fin 4096) :
    shapeCast S4096x1 x h (ix2 i 0) = x (ix1 i) := by
  refine shapeCast_apply x h (ix2 i 0) (ix1 i) ?_
  rw [Shape.rowMajor_val_one, Shape.rowMajor_val_two]
  show i.val = i.val * 1 + 0
  omega

/-- The squared norm of row `i`. -/
theorem sq_apply (v0 : Vec Ideal S4096x128 .f32) (i : Fin 4096) :
    k0_pay3 (F := Ideal) v0 (ix2 i 0) = ∑ k : Fin 128, v0 (ix2 i k) * v0 (ix2 i k) := by
  unfold k0_pay3
  refine (column_apply _ _ i).trans ?_
  refine (laneSum_apply _ _ _ _ i).trans ?_
  rfl

/-- The entry sum of row `i`. -/
theorem s_apply (v0 : Vec Ideal S4096x128 .f32) (i : Fin 4096) :
    k0_pay4 (F := Ideal) v0 (ix2 i 0) = ∑ k : Fin 128, v0 (ix2 i k) := by
  unfold k0_pay4
  refine (column_apply _ _ i).trans ?_
  exact laneSum_apply _ _ _ _ i

/-- The lane number `l < 128` as a 32-bit word equals the word of `c < 128` exactly when `l = c`. -/
theorem lane_eq (l : Fin 128) (c : Nat) (hc : c < 128) :
    IntOp.cmpi .eq (BitVec.ofNat 32 l.val) (BitVec.ofNat 32 c) = 1#1 ↔ l.val = c := by
  rw [IntOp.cmpi_eq, ← BitVec.toNat_inj, BitVec.toNat_ofNat, BitVec.toNat_ofNat]
  have := l.isLt
  omega

/-- A select on "lane is `c`" is the `if` on the lane number. -/
theorem select_lane {α : Type} (l : Fin 128) (c : Nat) (hc : c < 128) (A B : α) :
    Scalar.select (IntOp.cmpi .eq (BitVec.ofNat 32 l.val) (BitVec.ofNat 32 c)) A B = if l.val = c then A else B := by
  by_cases h : l.val = c
  · rw [if_pos h, (lane_eq l c hc).2 h, select_one]
  · rw [if_neg h, eq_zero_of_ne_one (fun h1 => h ((lane_eq l c hc).1 h1)), select_zero]

/-- The three-way lane pattern: the first block at lane 0, the second at lane 1, the third elsewhere. -/
theorem lanes_apply {α : Type} (h : S4096x128.Iotas .tc 32 [1]) (A B C : S4096x128.Idx → α) (i : Fin 4096) (l : Fin 128) :
    select (cmpi .eq (iota .tc S4096x128 32 [1] h) (broadcast S4096x128 0#32)) A
      (select (cmpi .eq (iota .tc S4096x128 32 [1] h) (broadcast S4096x128 1#32)) B C) (ix2 i l)
    = if l.val = 0 then A (ix2 i l) else if l.val = 1 then B (ix2 i l) else C (ix2 i l) := by
  have hiota : iota .tc S4096x128 32 [1] h (ix2 i l) = BitVec.ofNat 32 l.val := iota_single_apply _ _ _ _ _ _
  show Scalar.select (IntOp.cmpi .eq (iota .tc S4096x128 32 [1] h (ix2 i l)) (BitVec.ofNat 32 0)) (A (ix2 i l))
      (Scalar.select (IntOp.cmpi .eq (iota .tc S4096x128 32 [1] h (ix2 i l)) (BitVec.ofNat 32 1)) (B (ix2 i l)) (C (ix2 i l))) = _
  rw [hiota, select_lane l 0 (by omega), select_lane l 1 (by omega)]

/-- A column [4096, 1] broadcast along the lanes reads, at (i, l), the column's entry (i, 0). -/
theorem bcastCol_apply {α : Type} (x : S4096x1.Idx → α) (h : S4096x1.Broadcasts S4096x128) (i : Fin 4096) (l : Fin 128) :
    broadcastTo S4096x128 x h (ix2 i l) = x (ix2 i 0) := by
  refine broadcastTo_apply x h (ix2 i l) (ix2 i 0) ?_
  intro a
  match a with
  | ⟨0, _⟩ => rfl
  | ⟨1, _⟩ => rfl

/-- The first augmented matrix, left half: the embeddings themselves. -/
theorem augA_left (v0 : Vec Ideal S4096x128 .f32) (i : Fin 4096) (k : Fin 128) :
    k0_pay5 (F := Ideal) v0 (ix2 i ⟨k.val, by omega⟩) = v0 (ix2 i k) := by
  unfold k0_pay5
  refine concatenate_pair_apply_left (t := S4096x256) (s₁ := S4096x128) (s₂ := S4096x128) (1 : Fin 2) _ _ _ (ix2 i (⟨k.val, by omega⟩ : Fin 256)) rfl (ix2 i k) ?_
  intro b
  match b with
  | ⟨0, _⟩ => rfl
  | ⟨1, _⟩ => rfl

/-- The first augmented matrix, right half: one at lane 0, the shifted squared norm at lane 1, zero elsewhere. -/
theorem augA_right (v0 : Vec Ideal S4096x128 .f32) (i : Fin 4096) (l : Fin 128) :
    k0_pay5 (F := Ideal) v0 (ix2 i ⟨128 + l.val, by omega⟩)
      = if l.val = 0 then Ideal.ofBits .f32 0x3F800000#32
        else if l.val = 1 then ((∑ k : Fin 128, v0 (ix2 i k) * v0 (ix2 i k)) + Ideal.ofBits .f32 0x360637BD#32 * ∑ k : Fin 128, v0 (ix2 i k)) + Ideal.ofBits .f32 0x2F0CBCCC#32
        else Ideal.ofBits .f32 0x00000000#32 := by
  unfold k0_pay5
  refine (concatenate_pair_apply_right (t := S4096x256) (s₁ := S4096x128) (s₂ := S4096x128) (1 : Fin 2) _ _ _ (ix2 i (⟨128 + l.val, by omega⟩ : Fin 256)) rfl rfl (ix2 i l) ?_ ?_).trans ?_
  · intro b hb
    match b with
    | ⟨0, _⟩ => rfl
    | ⟨1, _⟩ => exact absurd rfl hb
  · show l.val + 128 = 128 + l.val
    omega
  · refine (lanes_apply _ _ _ _ i l).trans ?_
    by_cases h0 : l.val = 0
    · rw [if_pos h0, if_pos h0]; rfl
    · rw [if_neg h0, if_neg h0]
      by_cases h1 : l.val = 1
      · rw [if_pos h1, if_pos h1]
        refine (bcastCol_apply _ _ i l).trans ?_
        rw [shapeCast_self]
        show (k0_pay3 v0 (ix2 i 0) + Ideal.ofBits .f32 0x360637BD#32 * k0_pay4 v0 (ix2 i 0)) + Ideal.ofBits .f32 0x2F0CBCCC#32 = _
        rw [sq_apply, s_apply]
      · rw [if_neg h1, if_neg h1]; rfl

/-- The second augmented matrix, left half: minus two times the embeddings. -/
theorem augB_left (v0 : Vec Ideal S4096x128 .f32) (j : Fin 4096) (k : Fin 128) :
    k0_pay6 (F := Ideal) v0 (ix2 j ⟨k.val, by omega⟩) = Ideal.ofBits .f32 0xC0000000#32 * v0 (ix2 j k) := by
  unfold k0_pay6
  refine (concatenate_pair_apply_left (t := S4096x256) (s₁ := S4096x128) (s₂ := S4096x128) (1 : Fin 2) _ _ _ (ix2 j (⟨k.val, by omega⟩ : Fin 256)) rfl (ix2 j k) ?_).trans ?_
  · intro b
    match b with
    | ⟨0, _⟩ => rfl
    | ⟨1, _⟩ => rfl
  · rfl

/-- The second augmented matrix, right half: the shifted squared norm at lane 0, one at lane 1, zero elsewhere. -/
theorem augB_right (v0 : Vec Ideal S4096x128 .f32) (j : Fin 4096) (l : Fin 128) :
    k0_pay6 (F := Ideal) v0 (ix2 j ⟨128 + l.val, by omega⟩)
      = if l.val = 0 then (∑ k : Fin 128, v0 (ix2 j k) * v0 (ix2 j k)) - Ideal.ofBits .f32 0x360637BD#32 * ∑ k : Fin 128, v0 (ix2 j k)
        else if l.val = 1 then Ideal.ofBits .f32 0x3F800000#32
        else Ideal.ofBits .f32 0x00000000#32 := by
  unfold k0_pay6
  refine (concatenate_pair_apply_right (t := S4096x256) (s₁ := S4096x128) (s₂ := S4096x128) (1 : Fin 2) _ _ _ (ix2 j (⟨128 + l.val, by omega⟩ : Fin 256)) rfl rfl (ix2 j l) ?_ ?_).trans ?_
  · intro b hb
    match b with
    | ⟨0, _⟩ => rfl
    | ⟨1, _⟩ => exact absurd rfl hb
  · show l.val + 128 = 128 + l.val
    omega
  · refine (lanes_apply _ _ _ _ j l).trans ?_
    by_cases h0 : l.val = 0
    · rw [if_pos h0, if_pos h0]
      refine (bcastCol_apply _ _ j l).trans ?_
      rw [shapeCast_self]
      show k0_pay3 v0 (ix2 j 0) - Ideal.ofBits .f32 0x360637BD#32 * k0_pay4 v0 (ix2 j 0) = _
      rw [sq_apply, s_apply]
    · rw [if_neg h0, if_neg h0]
      by_cases h1 : l.val = 1
      · rw [if_pos h1, if_pos h1]; rfl
      · rw [if_neg h1, if_neg h1]; rfl

/-- The 256-term dot product of augmented row i with augmented row j: the 128 products of the embeddings, plus the
    two live extra lanes; the other 126 lanes are zero times zero. -/
theorem dotAug_eq (v0 : Vec Ideal S4096x128 .f32) (i j : Fin 4096) :
    ∑ k : Fin 256, k0_pay5 (F := Ideal) v0 (ix2 i k) * k0_pay6 (F := Ideal) v0 (ix2 j k)
      = (∑ k : Fin 128, v0 (ix2 i k) * (Ideal.ofBits .f32 0xC0000000#32 * v0 (ix2 j k)))
        + (Ideal.ofBits .f32 0x3F800000#32 * ((∑ k : Fin 128, v0 (ix2 j k) * v0 (ix2 j k)) - Ideal.ofBits .f32 0x360637BD#32 * ∑ k : Fin 128, v0 (ix2 j k))
           + (((∑ k : Fin 128, v0 (ix2 i k) * v0 (ix2 i k)) + Ideal.ofBits .f32 0x360637BD#32 * ∑ k : Fin 128, v0 (ix2 i k)) + Ideal.ofBits .f32 0x2F0CBCCC#32) * Ideal.ofBits .f32 0x3F800000#32) := by
  refine (Fin.sum_univ_add (a := 128) (b := 128)
    (fun k => k0_pay5 (F := Ideal) v0 (ix2 i k) * k0_pay6 (F := Ideal) v0 (ix2 j k))).trans ?_
  refine congrArg₂ (· + ·) ?_ ?_
  · refine Finset.sum_congr rfl fun k _ => ?_
    show k0_pay5 (F := Ideal) v0 (ix2 i (⟨k.val, by omega⟩ : Fin 256)) * k0_pay6 (F := Ideal) v0 (ix2 j (⟨k.val, by omega⟩ : Fin 256)) = _
    rw [augA_left, augB_left]
  · refine (Fintype.sum_eq_add (⟨0, by omega⟩ : Fin 128) (⟨1, by omega⟩ : Fin 128) (by decide) ?_).trans ?_
    · intro l hl
      have h0 : ¬ l.val = 0 := fun h => hl.1 (Fin.ext h)
      have h1 : ¬ l.val = 1 := fun h => hl.2 (Fin.ext h)
      show k0_pay5 (F := Ideal) v0 (ix2 i (⟨128 + l.val, by omega⟩ : Fin 256)) * k0_pay6 (F := Ideal) v0 (ix2 j (⟨128 + l.val, by omega⟩ : Fin 256)) = 0
      rw [augA_right, augB_right, if_neg h0, if_neg h1, if_neg h0, if_neg h1, Ideal.ofBits_zero_f32, mul_zero]
    · refine congrArg₂ (· + ·) ?_ ?_
      · show k0_pay5 (F := Ideal) v0 (ix2 i (⟨128 + (⟨0, by omega⟩ : Fin 128).val, by omega⟩ : Fin 256))
            * k0_pay6 (F := Ideal) v0 (ix2 j (⟨128 + (⟨0, by omega⟩ : Fin 128).val, by omega⟩ : Fin 256)) = _
        rw [augA_right, augB_right]
        rfl
      · show k0_pay5 (F := Ideal) v0 (ix2 i (⟨128 + (⟨1, by omega⟩ : Fin 128).val, by omega⟩ : Fin 256))
            * k0_pay6 (F := Ideal) v0 (ix2 j (⟨128 + (⟨1, by omega⟩ : Fin 128).val, by omega⟩ : Fin 256)) = _
        rw [augA_right, augB_right]
        rfl

end Cert.KernelIdeal.Aug

end
-- ==== Proof.RefRead.lean ====
import proofs.«179548_g20658792694316_retrytranche2_665_24_alg».proof.Proof.Gen.ReferenceIdeal.Read

noncomputable section

namespace Cert.RefRead

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.Read

/-! # The reference program's result as an explicit double sum

The reference computes, from `4096` rows of `128` extended reals and `4096` integer targets, for every ordered
pair of rows `(i, j)`: the rows' sums of squares `sq`, sums `s` and inner product `G`; the shifted squared distance
`d2 = (((sq i + sq j) - 2·G i j) + w1·(s i - s j)) + w2`; its clamped root `dist`; and then adds `dist²` over the pairs
`i < j` with equal targets and the squared hinge `max (1 - dist) 0` over the pairs `i < j` with different targets.
Each stage of the program is read at coordinates, from the inputs up: the composed index maps of the broadcasts,
the transpose and the contractions are identified with coordinate-built indices, the bit masks with propositions,
and the two total sums with double sums over the coordinates. The float words are kept as words throughout. -/

/-- The embeddings: `4096` rows of `128` extended reals. -/
abbrev Emb : Type := (⟨S4096x128, .f32⟩ : BufTy).Contents (Elt Ideal)
/-- The targets: `4096` integer words. -/
abbrev Tgt : Type := (⟨S4096, .i32⟩ : BufTy).Contents (Elt Ideal)

/-- Row `i`'s sum of squares, from the zero word. -/
def sq (x0 : Emb) (i : Fin 4096) : EReal :=
  Ideal.ofBits .f32 0x00000000#32 + ∑ k : Fin 128, x0 (ix2 i k) * x0 (ix2 i k)

/-- Row `i`'s sum, from the zero word. -/
def s (x0 : Emb) (i : Fin 4096) : EReal :=
  Ideal.ofBits .f32 0x00000000#32 + ∑ k : Fin 128, x0 (ix2 i k)

/-- The inner product of rows `i` and `j`. -/
def G (x0 : Emb) (i j : Fin 4096) : EReal :=
  ∑ k : Fin 128, x0 (ix2 i k) * x0 (ix2 j k)

/-- The shifted squared distance before clamping. -/
def d2 (x0 : Emb) (i j : Fin 4096) : EReal :=
  ((((sq x0 i + sq x0 j) - Ideal.ofBits .f32 0x40000000#32 * G x0 i j)
    + Ideal.ofBits .f32 0x360637BD#32 * (s x0 i - s x0 j)) + Ideal.ofBits .f32 0x2F0CBCCC#32)

/-! ### Index equations: the composed index maps at coordinates -/

theorem idx_v1 (i : Fin 4096) (k : Fin 128) : idx_main_v1 (ix1 i) k = ix2 i k :=
  funext fun a => Fin.ext (by match a with | ⟨0, _⟩ => rfl | ⟨1, _⟩ => rfl)
theorem idx_v2 (i : Fin 4096) (k : Fin 128) : idx_main_v2 (ix1 i) k = ix2 i k :=
  funext fun a => Fin.ext (by match a with | ⟨0, _⟩ => rfl | ⟨1, _⟩ => rfl)
theorem lidx_v4 (i j : Fin 4096) (k : Fin 128) : lidx_main_v4 (ix2 i j) k = ix2 i k :=
  funext fun a => Fin.ext (by match a with | ⟨0, _⟩ => rfl | ⟨1, _⟩ => rfl)
theorem ridx_v4 (i j : Fin 4096) (k : Fin 128) : idx_main_v3 (ridx_main_v4 (ix2 i j) k) = ix2 j k :=
  funext fun a => Fin.ext (by match a with | ⟨0, _⟩ => rfl | ⟨1, _⟩ => rfl)
theorem idx_v7 (i j : Fin 4096) : idx_main_v5 (idx_main_v7 (ix2 i j)) = ix1 i :=
  funext fun a => Fin.ext (by match a with | ⟨0, _⟩ => rfl)
theorem idx_v8 (i j : Fin 4096) : idx_main_v6 (idx_main_v8 (ix2 i j)) = ix1 j :=
  funext fun a => Fin.ext (by match a with | ⟨0, _⟩ => rfl)
theorem idx_v15 (i j : Fin 4096) : idx_main_v13 (idx_main_v15 (ix2 i j)) = ix1 i :=
  funext fun a => Fin.ext (by match a with | ⟨0, _⟩ => rfl)
theorem idx_v16 (i j : Fin 4096) : idx_main_v14 (idx_main_v16 (ix2 i j)) = ix1 j :=
  funext fun a => Fin.ext (by match a with | ⟨0, _⟩ => rfl)
theorem idx_v28 (i j : Fin 4096) : idx_main_v26 (idx_main_v28 (ix2 i j)) = ix1 i :=
  funext fun a => Fin.ext (by match a with | ⟨0, _⟩ => rfl)
theorem idx_v29 (i j : Fin 4096) : idx_main_v27 (idx_main_v29 (ix2 i j)) = ix1 j :=
  funext fun a => Fin.ext (by match a with | ⟨0, _⟩ => rfl)

/-! ### The three row quantities -/

theorem sq_read (x0 : Emb) (i : Fin 4096) : val_main_v1 (F := Ideal) x0 (ix1 i) = sq x0 i := by
  rw [val_main_v1_apply, val_main_cst_apply]
  simp only [val_main_v0_apply, idx_v1, Ideal.mulf_def, Ideal.ofBits_def]
  rfl

theorem s_read (x0 : Emb) (i : Fin 4096) : val_main_v2 (F := Ideal) x0 (ix1 i) = s x0 i := by
  rw [val_main_v2_apply, val_main_cst_0_apply]
  simp only [idx_v2, Ideal.ofBits_def]
  rfl

theorem G_read (x0 : Emb) (i j : Fin 4096) : val_main_v4 (F := Ideal) x0 (ix2 i j) = G x0 i j := by
  rw [val_main_v4_apply]
  simp only [val_main_v3_apply, lidx_v4, ridx_v4]
  rfl

/-- The unclamped squared distance at `(i, j)`. -/
theorem d2_read (x0 : Emb) (i j : Fin 4096) : val_main_v22 (F := Ideal) x0 (ix2 i j) = d2 x0 i j := by
  rw [val_main_v22_apply, val_main_v20_apply, val_main_v12_apply, val_main_v9_apply, val_main_v7_apply,
    val_main_v5_apply, val_main_v8_apply, val_main_v6_apply, val_main_v11_apply, val_main_v10_apply,
    val_main_cst_1_apply, val_main_v19_apply, val_main_v18_apply, val_main_cst_2_apply, val_main_v17_apply,
    val_main_v15_apply, val_main_v13_apply, val_main_v16_apply, val_main_v14_apply, val_main_v21_apply,
    val_main_cst_3_apply]
  simp only [idx_v7, idx_v8, idx_v15, idx_v16, sq_read, s_read, G_read, Ideal.addf_def, Ideal.subf_def,
    Ideal.mulf_def, Ideal.ofBits_def]
  rfl

/-- The distance: the root of the squared distance clamped below at the zero word. -/
def dist (x0 : Emb) (i j : Fin 4096) : EReal :=
  Ideal.sqrt (max (d2 x0 i j) (Ideal.ofBits .f32 0x00000000#32))

theorem dist_read (x0 : Emb) (i j : Fin 4096) : val_main_v25 (F := Ideal) x0 (ix2 i j) = dist x0 i j := by
  rw [val_main_v25_apply, val_main_v24_apply, val_main_v23_apply, val_main_cst_4_apply, d2_read]
  simp only [Ideal.hostUnary_sqrt_def, Ideal.maximumf_def, Ideal.ofBits_def]
  rfl

/-! ### The masks -/

/-- A number below `4096`, written as a 32-bit word and read back signed, is itself. -/
theorem toInt_ofNat_lt (n : Nat) (h : n < 4096) : (BitVec.ofNat 32 n).toInt = (n : Int) := by
  have hn : (BitVec.ofNat 32 n).toNat = n := by rw [BitVec.toNat_ofNat]; omega
  rw [BitVec.toInt_eq_toNat_of_lt (by omega), hn]

/-- A select on a bit that is `1` exactly when `p` holds is the `if` on `p`. -/
theorem select_bit {α : Type} (c : BitVec 1) (p : Prop) [Decidable p] (h : c = 1#1 ↔ p) (a b : α) :
    Scalar.select c a b = if p then a else b := by
  unfold Scalar.select
  exact if_congr h rfl rfl

/-- The strict upper triangle: the program selects `false` where `row + 0 ≥ column` (signed) and
    `true` elsewhere, and both coordinates are below `4096`, so the bit is `1` exactly when `i < j`. -/
theorem triu_read (i j : Fin 4096) : val_main_v32 (F := Ideal) (ix2 i j) = 1#1 ↔ i < j := by
  rw [val_main_v32_apply, val_main_call0_v4_apply, val_main_call0_v2_apply, val_main_call0_v0_apply,
    val_main_call0_v1_apply, val_main_call0_c_apply, val_main_call0_v3_apply, val_main_call0_v5_apply,
    val_main_call0_c_0_apply, val_main_v31_apply, val_main_c_apply]
  show Scalar.select (IntOp.cmpi .sge (IntOp.addi (BitVec.ofNat 32 i.val) 0#32) (BitVec.ofNat 32 j.val)) 0#1 1#1 = 1#1
    ↔ i < j
  have hadd : IntOp.addi (BitVec.ofNat 32 i.val) 0#32 = BitVec.ofNat 32 i.val := by
    unfold IntOp.addi; exact BitVec.add_zero _
  have hge : IntOp.cmpi .sge (BitVec.ofNat 32 i.val) (BitVec.ofNat 32 j.val) = 1#1 ↔ j ≤ i := by
    rw [IntOp.cmpi_sge, toInt_ofNat_lt _ i.isLt, toInt_ofNat_lt _ j.isLt, Fin.le_def]
    exact Int.ofNat_le
  rw [hadd, select_bit _ _ hge]
  by_cases h : j ≤ i
  · rw [if_pos h]
    exact ⟨fun h' => absurd h' (by decide), fun h' => absurd h (not_le.mpr h')⟩
  · rw [if_neg h]
    exact ⟨fun _ => not_le.mp h, fun _ => rfl⟩

/-- The targets' comparison at `(i, j)`. -/
theorem same_read (x1 : Tgt) (i j : Fin 4096) :
    val_main_v30 (F := Ideal) x1 (ix2 i j) = 1#1 ↔ x1 (ix1 i) = x1 (ix1 j) := by
  rw [val_main_v30_apply, val_main_v28_apply, val_main_v26_apply, val_main_v29_apply, val_main_v27_apply,
    idx_v28, idx_v29]
  exact IntOp.cmpi_eq

/-- The positive-pair mask. -/
theorem pos_read (x1 : Tgt) (i j : Fin 4096) :
    val_main_v33 (F := Ideal) x1 (ix2 i j) = 1#1 ↔ (x1 (ix1 i) = x1 (ix1 j) ∧ i < j) := by
  rw [val_main_v33_apply, IntOp.andi_eq_one, same_read, triu_read]

/-- The negative-pair mask. -/
theorem neg_read (x1 : Tgt) (i j : Fin 4096) :
    val_main_v35 (F := Ideal) x1 (ix2 i j) = 1#1 ↔ (¬ x1 (ix1 i) = x1 (ix1 j) ∧ i < j) := by
  rw [val_main_v35_apply, IntOp.andi_eq_one, val_main_v34_apply, IntOp.not_eq_one, same_read, triu_read]

/-! ### The two summands -/

/-- The positive pairs' term: the squared distance where the targets agree and `i < j`. -/
def P (x0 : Emb) (x1 : Tgt) (i j : Fin 4096) : EReal :=
  if x1 (ix1 i) = x1 (ix1 j) ∧ i < j then dist x0 i j * dist x0 i j else Ideal.ofBits .f32 0x00000000#32

/-- The negative pairs' term: the squared hinge where the targets differ and `i < j`. -/
def N (x0 : Emb) (x1 : Tgt) (i j : Fin 4096) : EReal :=
  if ¬ x1 (ix1 i) = x1 (ix1 j) ∧ i < j then
    max (Ideal.ofBits .f32 0x3F800000#32 - dist x0 i j) (Ideal.ofBits .f32 0x00000000#32)
      * max (Ideal.ofBits .f32 0x3F800000#32 - dist x0 i j) (Ideal.ofBits .f32 0x00000000#32)
  else Ideal.ofBits .f32 0x00000000#32

theorem P_read (x0 : Emb) (x1 : Tgt) (i j : Fin 4096) :
    val_main_v37 (F := Ideal) x0 x1 (ix2 i j) = P x0 x1 i j := by
  rw [val_main_v37_apply, val_main_v36_apply, dist_read, val_main_call1_v1_apply, val_main_call1_v0_apply,
    val_main_cst_5_apply, select_bit _ _ (pos_read x1 i j)]
  simp only [Ideal.mulf_def, Ideal.ofBits_def]
  rfl

theorem N_read (x0 : Emb) (x1 : Tgt) (i j : Fin 4096) :
    val_main_v44 (F := Ideal) x0 x1 (ix2 i j) = N x0 x1 i j := by
  rw [val_main_v44_apply, val_main_v43_apply, val_main_v42_apply, val_main_v40_apply, val_main_v39_apply,
    val_main_cst_7_apply, val_main_v41_apply, val_main_cst_8_apply, dist_read, val_main_call2_v1_apply,
    val_main_call2_v0_apply, val_main_cst_9_apply, select_bit _ _ (neg_read x1 i j)]
  simp only [Ideal.mulf_def, Ideal.subf_def, Ideal.maximumf_def, Ideal.ofBits_def]
  rfl

/-! ### The result -/

theorem result_eq (x0 : Emb) (x1 : Tgt) :
    val_main_v47 (F := Ideal) x0 x1 ix0
      = ((Ideal.ofBits .f32 0x00000000#32 + ∑ i : Fin 4096, ∑ j : Fin 4096, P x0 x1 i j)
          + (Ideal.ofBits .f32 0x00000000#32 + ∑ i : Fin 4096, ∑ j : Fin 4096, N x0 x1 i j))
        * Ideal.ofBits .f32 0x3F800000#32 := by
  rw [val_main_v47_apply, val_main_v46_apply, val_main_v38_apply, val_main_v45_apply, val_main_cst_6_apply,
    val_main_cst_10_apply, val_main_cst_11_apply, sum_idx2, sum_idx2]
  simp only [P_read, N_read, Ideal.mulf_def, Ideal.addf_def, Ideal.ofBits_def]

end Cert.RefRead

end
-- ==== Proof.PairReal.lean ====
import Idealize.ShloMosaic.PureOps.Ideal

noncomputable section

open Idealize.ShloMosaic

namespace Cert.PairReal

/-! ### The float words as exact reals

A normal single-precision word with exponent field `E` and fraction `T` denotes
`(2^23 + T) · 2^(E - 127 - 23)`. -/

/-- The single-precision number nearest `2e-6`: exponent field `108`, fraction `407485`,
    so `(2^23 + 407485) · 2^(-42) = 8796093 / 2^42`. -/
def c1 : ℝ := 8796093 / 2^42

/-- The single-precision number nearest `1.28e-10`: exponent field `94`, fraction `834764`,
    so `(2^23 + 834764) · 2^(-56) = 9223372 / 2^56 = 2305843 / 2^54`. -/
def c2 : ℝ := 2305843 / 2^54

/-- The positive clamp `10^(-30)`. -/
def eps : ℝ := 1 / 1000000000000000000000000000000

theorem ofBits_c1 : Ideal.ofBits .f32 0x360637BD#32 = ((c1 : ℝ) : EReal) := by
  simp [Ideal.ofBits, Ideal.ieee, c1, -EReal.coe_mul]; norm_num

theorem ofBits_c2 : Ideal.ofBits .f32 0x2F0CBCCC#32 = ((c2 : ℝ) : EReal) := by
  simp [Ideal.ofBits, Ideal.ieee, c2, -EReal.coe_mul]; norm_num

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

/-! ### The shifted squared distance -/

/-- `D a b = Σ (a k - b k)^2 + c1 · Σ (a k - b k) + c2` over `128` coordinates. -/
def D (a b : Fin 128 → ℝ) : ℝ := (∑ k, (a k - b k)^2) + c1 * (∑ k, (a k - b k)) + c2

/-- Completing the square coordinate by coordinate:
    `(x + c1/2)^2 = x^2 + c1·x + c1^2/4`, and `128 · c1^2/4 = 32 · c1^2`. -/
theorem D_eq_sq (a b : Fin 128 → ℝ) :
    D a b = (∑ k, ((a k - b k) + c1 / 2)^2) + (c2 - 32 * c1^2) := by
  have h : ∀ k, ((a k - b k) + c1 / 2)^2 = (a k - b k)^2 + c1 * (a k - b k) + c1^2 / 4 :=
    fun k => by ring
  unfold D
  simp only [h, Finset.sum_add_distrib, ← Finset.mul_sum, Finset.sum_const, Finset.card_univ,
    Fintype.card_fin, nsmul_eq_mul]
  push_cast
  ring

/-- `c2 - 32·c1^2 = (2305843 · 2^25 - 8796093^2) / 2^79 = 81527 / 2^79`. -/
theorem const_gap : c2 - 32 * c1^2 = (81527 : ℝ) / 2^79 := by
  unfold c1 c2; norm_num

/-- A sum of squares is nonnegative, so `D` is at least the constant left over after
    completing the square. -/
theorem D_lower (a b : Fin 128 → ℝ) : (81527 : ℝ) / 2^79 ≤ D a b := by
  rw [D_eq_sq, const_gap]
  have h : 0 ≤ ∑ k, ((a k - b k) + c1 / 2)^2 := Finset.sum_nonneg (fun k _ => sq_nonneg _)
  linarith

/-- `10^(-30) ≤ 81527 / 2^79` (the right side is about `1.35e-19`). -/
theorem eps_le_D (a b : Fin 128 → ℝ) : eps ≤ D a b := by
  have h := D_lower a b
  have h2 : eps ≤ (81527 : ℝ) / 2^79 := by unfold eps; norm_num
  linarith

theorem D_pos (a b : Fin 128 → ℝ) : 0 < D a b := by
  have h := D_lower a b
  have h2 : (0 : ℝ) < (81527 : ℝ) / 2^79 := by norm_num
  linarith

/-- The first arrangement: `(a - b)^2 = a·a + a·(-2·b) + b·b`, summed, with the linear and
    constant terms carried in the two augmented halves. -/
theorem kernel_form (a b : Fin 128 → ℝ) :
    (∑ k, a k * (-2 * b k)) + (1 * ((∑ k, b k * b k) - c1 * ∑ k, b k) + (((∑ k, a k * a k) + c1 * ∑ k, a k) + c2) * 1) = D a b := by
  have h : ∀ k, (a k - b k)^2 = a k * a k + a k * (-2 * b k) + b k * b k := fun k => by ring
  unfold D
  simp only [h, Finset.sum_add_distrib, Finset.sum_sub_distrib]
  ring

/-- The second arrangement: `(a - b)^2 = a·a + b·b - 2·(a·b)`, summed. -/
theorem ref_form (a b : Fin 128 → ℝ) :
    ((((∑ k, a k * a k) + (∑ k, b k * b k)) - 2 * (∑ k, a k * b k)) + c1 * ((∑ k, a k) - (∑ k, b k))) + c2 = D a b := by
  have h : ∀ k, (a k - b k)^2 = a k * a k + b k * b k - 2 * (a k * b k) := fun k => by ring
  have e : D a b = ((((∑ k, a k * a k) + (∑ k, b k * b k)) - 2 * (∑ k, a k * b k))
      + c1 * ((∑ k, a k) - (∑ k, b k))) + c2 := by
    unfold D
    simp only [h, Finset.sum_add_distrib, Finset.sum_sub_distrib, ← Finset.mul_sum]
  rw [e]

/-! ### Finite sums, clamps and roots in the extended reals -/

/-- The coercion of reals into the extended reals commutes with finite sums
    (induction on the index set, using additivity of the coercion). -/
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert x s hx ih => rw [Finset.sum_insert hx, Finset.sum_insert hx, EReal.coe_add, ih]

theorem max_eps (d : ℝ) (h : eps ≤ d) : max ((d : ℝ) : EReal) ((eps : ℝ) : EReal) = ((d : ℝ) : EReal) :=
  max_eq_left (EReal.coe_le_coe_iff.mpr h)

theorem max_zero (d : ℝ) (h : 0 ≤ d) : max ((d : ℝ) : EReal) 0 = ((d : ℝ) : EReal) :=
  max_eq_left (EReal.coe_nonneg.mpr h)

/-- At a nonnegative real the extended square root is the real square root. -/
theorem sqrt_coe (d : ℝ) (h : 0 ≤ d) : Ideal.sqrt ((d : ℝ) : EReal) = ((Real.sqrt d : ℝ) : EReal) := by
  have e : Ideal.sqrt ((d : ℝ) : EReal) = if d < 0 then ⊥ else ((Real.sqrt d : ℝ) : EReal) := rfl
  rw [e, if_neg (not_lt.mpr h)]

/-- At a positive real the extended reciprocal square root is `(√d)⁻¹`. -/
theorem rsqrt_coe (d : ℝ) (h : 0 < d) : Ideal.rsqrt ((d : ℝ) : EReal) = (((Real.sqrt d)⁻¹ : ℝ) : EReal) := by
  have e : Ideal.rsqrt ((d : ℝ) : EReal)
      = if d < 0 then ⊥ else if d = 0 then ⊤ else (((Real.sqrt d)⁻¹ : ℝ) : EReal) := rfl
  rw [e, if_neg (not_lt.mpr h.le), if_neg h.ne']

/-- `d · (√d)⁻¹ = (√d · √d) · (√d)⁻¹ = √d` for `d > 0`. -/
theorem mul_rsqrt (d : ℝ) (h : 0 < d) : ((d : ℝ) : EReal) * Ideal.rsqrt ((d : ℝ) : EReal) = Ideal.sqrt ((d : ℝ) : EReal) := by
  rw [rsqrt_coe d h, sqrt_coe d h.le, ← EReal.coe_mul]
  congr 1
  have hs : 0 < Real.sqrt d := Real.sqrt_pos.mpr h
  have hd : Real.sqrt d * Real.sqrt d = d := Real.mul_self_sqrt h.le
  calc d * (Real.sqrt d)⁻¹ = (Real.sqrt d * Real.sqrt d) * (Real.sqrt d)⁻¹ := by rw [hd]
    _ = Real.sqrt d := by field_simp

/-- `√d · √d = d` for `d ≥ 0`. -/
theorem sqrt_mul_sqrt (d : ℝ) (h : 0 ≤ d) : Ideal.sqrt ((d : ℝ) : EReal) * Ideal.sqrt ((d : ℝ) : EReal) = ((d : ℝ) : EReal) := by
  rw [sqrt_coe d h, ← EReal.coe_mul, Real.mul_self_sqrt h]

end Cert.PairReal

end
-- ==== Proof.PairBridge.lean ====
import proofs.«179548_g20658792694316_retrytranche2_665_24_alg».proof.Proof.PairReal

noncomputable section

open Idealize.ShloMosaic Cert.PairReal

/-!
# Two arrangements of one shifted squared distance

For two rows of 128 real numbers the shifted squared distance
D = Σ (a k - b k)^2 + c1 · Σ (a k - b k) + c2 is computed in two arrangements over the extended
reals, the constants being given as single-precision words.  Both arrangements are the coercion of
the real number D, which is at least the positive clamp constant; so a clamp from below at that
constant, or at zero, does nothing, x · x^(-1/2) is the square root of x, and the square of that
square root is x again.
-/

namespace Cert.PairBridge

local notation "wZero" => (Ideal.ofBits FTy.f32 0x00000000#32)
local notation "wOne" => (Ideal.ofBits FTy.f32 0x3F800000#32)
local notation "wTwo" => (Ideal.ofBits FTy.f32 0x40000000#32)
local notation "wNegTwo" => (Ideal.ofBits FTy.f32 0xC0000000#32)
local notation "wC1" => (Ideal.ofBits FTy.f32 0x360637BD#32)
local notation "wC2" => (Ideal.ofBits FTy.f32 0x2F0CBCCC#32)

/-- The first program's arrangement (a 256-term dot product of augmented rows, reduced to its live
    parts). -/
def kD (a b : Fin 128 → EReal) : EReal :=
  (∑ k, a k * (wNegTwo * b k))
    + (wOne * ((∑ k, b k * b k) - wC1 * ∑ k, b k) + (((∑ k, a k * a k) + wC1 * ∑ k, a k) + wC2) * wOne)

/-- The second program's arrangement (every sum starts from the zero word). -/
def rD (a b : Fin 128 → EReal) : EReal :=
  ((((wZero + ∑ k, a k * a k) + (wZero + ∑ k, b k * b k)) - wTwo * ∑ k, a k * b k)
    + wC1 * ((wZero + ∑ k, a k) - (wZero + ∑ k, b k))) + wC2

/-- On rows of reals the first arrangement is the coercion of D: read the words as reals, pull the
    coercion out of every product, sum and difference, and compare the real expressions. -/
theorem kD_coe (ar br : Fin 128 → ℝ) :
    kD (fun k => ((ar k : ℝ) : EReal)) (fun k => ((br k : ℝ) : EReal)) = ((D ar br : ℝ) : EReal) := by
  unfold kD
  rw [ofBits_neg_two, ofBits_one, ofBits_c1, ofBits_c2]
  simp only [← EReal.coe_mul, ← coe_sum, ← EReal.coe_sub, ← EReal.coe_add]
  exact congrArg _ (kernel_form ar br)

/-- The same for the second arrangement; the zero word is the real 0 and drops out of every sum. -/
theorem rD_coe (ar br : Fin 128 → ℝ) :
    rD (fun k => ((ar k : ℝ) : EReal)) (fun k => ((br k : ℝ) : EReal)) = ((D ar br : ℝ) : EReal) := by
  unfold rD
  rw [ofBits_zero, ofBits_two, ofBits_c1, ofBits_c2]
  simp only [EReal.coe_zero, zero_add]
  simp only [← EReal.coe_mul, ← coe_sum, ← EReal.coe_sub, ← EReal.coe_add]
  exact congrArg _ (ref_form ar br)

/-- Rows of reals: both arrangements are one real number, at least eps. -/
theorem exists_real (a b : Fin 128 → EReal) (ha : ∀ k, ∃ r : ℝ, a k = ((r : ℝ) : EReal))
    (hb : ∀ k, ∃ r : ℝ, b k = ((r : ℝ) : EReal)) :
    ∃ d : ℝ, eps ≤ d ∧ kD a b = ((d : ℝ) : EReal) ∧ rD a b = ((d : ℝ) : EReal) := by
  choose ar har using ha
  choose br hbr using hb
  obtain rfl : a = fun k => ((ar k : ℝ) : EReal) := funext har
  obtain rfl : b = fun k => ((br k : ℝ) : EReal) := funext hbr
  exact ⟨D ar br, eps_le_D ar br, kD_coe ar br, rD_coe ar br⟩

/-- The first program's term of a pair (clamp at the constant e, whose value is eps) equals the sum
    of the second program's two terms (clamp at zero; exactly one of the two is live). -/
theorem pair_eq (same : Prop) [Decidable same] (a b : Fin 128 → EReal)
    (ha : ∀ k, ∃ r : ℝ, a k = ((r : ℝ) : EReal)) (hb : ∀ k, ∃ r : ℝ, b k = ((r : ℝ) : EReal))
    (e : EReal) (he : e = ((eps : ℝ) : EReal)) :
    (if same then max (kD a b) e
      else max (wOne - max (kD a b) e * Ideal.rsqrt (max (kD a b) e)) wZero
        * max (wOne - max (kD a b) e * Ideal.rsqrt (max (kD a b) e)) wZero)
    = (if same then Ideal.sqrt (max (rD a b) wZero) * Ideal.sqrt (max (rD a b) wZero) else wZero)
      + (if ¬ same then max (wOne - Ideal.sqrt (max (rD a b) wZero)) wZero
          * max (wOne - Ideal.sqrt (max (rD a b) wZero)) wZero else wZero) := by
  obtain ⟨d, hd, hk, hr⟩ := exists_real a b ha hb
  have heps : (0 : ℝ) < eps := by unfold eps; norm_num
  have hd0 : 0 < d := lt_of_lt_of_le heps hd
  rw [hk, hr, he, ofBits_zero, ofBits_one, EReal.coe_zero, max_eps d hd, max_zero d hd0.le,
    mul_rsqrt d hd0, sqrt_mul_sqrt d hd0.le]
  by_cases h : same
  · simp only [if_pos h, if_neg (not_not_intro h), add_zero]
  · simp only [if_neg h, if_pos h, zero_add]

end Cert.PairBridge

end
-- ==== Proof.Total.lean ====
import proofs.«179548_g20658792694316_retrytranche2_665_24_alg».proof.Proof.RefRead
import proofs.«179548_g20658792694316_retrytranche2_665_24_alg».proof.Proof.PairBridge

noncomputable section

/-! # The two totals agree

One program adds one term per pair of rows `i < j`; the other adds two full `4096 × 4096` masked sums, each started
from the zero word, adds the two and multiplies by the word one. The zero word is `0` and the word one is `1`, so
the second total is the double sum of `P + N`. On a pair `i < j` with rows of reals the one term is `P + N` (the
pair identity at the two rows), and off the strict upper triangle both masks fail, so `P + N = 0 + 0 = 0`. -/

namespace Cert.Total

open Cert.RefRead Cert.PairBridge Idealize.ShloMosaic Idealize.ShloMosaic.ValueIdx

/-- The squared distance read off the reference is the second arrangement of the two rows. -/
theorem d2_eq_rD (x0 : Emb) (i j : Fin 4096) :
    d2 x0 i j = rD (fun k => x0 (ix2 i k)) (fun k => x0 (ix2 j k)) := rfl

/-- On a pair `i < j` the positive term's mask is the targets' equality alone … -/
theorem P_of_lt (x0 : Emb) (x1 : Tgt) (i j : Fin 4096) (hij : i < j) :
    P x0 x1 i j = if x1 (ix1 i) = x1 (ix1 j) then dist x0 i j * dist x0 i j
      else Ideal.ofBits .f32 0x00000000#32 := by
  unfold P
  exact if_congr (and_iff_left hij) rfl rfl

/-- … and the negative term's mask its negation alone. -/
theorem N_of_lt (x0 : Emb) (x1 : Tgt) (i j : Fin 4096) (hij : i < j) :
    N x0 x1 i j = if ¬ x1 (ix1 i) = x1 (ix1 j) then
        max (Ideal.ofBits .f32 0x3F800000#32 - dist x0 i j) (Ideal.ofBits .f32 0x00000000#32)
          * max (Ideal.ofBits .f32 0x3F800000#32 - dist x0 i j) (Ideal.ofBits .f32 0x00000000#32)
      else Ideal.ofBits .f32 0x00000000#32 := by
  unfold N
  exact if_congr (and_iff_left hij) rfl rfl

/-- Off the strict upper triangle both masks fail, so both terms are the zero word. -/
theorem P_of_not_lt (x0 : Emb) (x1 : Tgt) (i j : Fin 4096) (hij : ¬ i < j) :
    P x0 x1 i j = Ideal.ofBits .f32 0x00000000#32 := by
  unfold P
  exact if_neg (fun hc => hij hc.2)

theorem N_of_not_lt (x0 : Emb) (x1 : Tgt) (i j : Fin 4096) (hij : ¬ i < j) :
    N x0 x1 i j = Ideal.ofBits .f32 0x00000000#32 := by
  unfold N
  exact if_neg (fun hc => hij hc.2)

/-- On a pair `i < j` with rows of reals, a term of the first program's form is `P + N`. -/
theorem pair_split (x0 : Emb) (x1 : Tgt) (hfin : ∀ idx, ∃ r : ℝ, x0 idx = ((r : ℝ) : EReal)) (e : EReal)
    (he : e = ((Cert.PairReal.eps : ℝ) : EReal)) (i j : Fin 4096) (hij : i < j) :
    (if x1 (ix1 i) = x1 (ix1 j) then max (kD (fun k => x0 (ix2 i k)) (fun k => x0 (ix2 j k))) e
      else max (Ideal.ofBits .f32 0x3F800000#32 - max (kD (fun k => x0 (ix2 i k)) (fun k => x0 (ix2 j k))) e * Ideal.rsqrt (max (kD (fun k => x0 (ix2 i k)) (fun k => x0 (ix2 j k))) e)) (Ideal.ofBits .f32 0x00000000#32)
         * max (Ideal.ofBits .f32 0x3F800000#32 - max (kD (fun k => x0 (ix2 i k)) (fun k => x0 (ix2 j k))) e * Ideal.rsqrt (max (kD (fun k => x0 (ix2 i k)) (fun k => x0 (ix2 j k))) e)) (Ideal.ofBits .f32 0x00000000#32))
    = P x0 x1 i j + N x0 x1 i j := by
  rw [P_of_lt x0 x1 i j hij, N_of_lt x0 x1 i j hij]
  unfold Cert.RefRead.dist
  rw [d2_eq_rD]
  exact pair_eq _ _ _ (fun k => hfin _) (fun k => hfin _) e he

/-- The word `1.0` is the extended real `1`. -/
theorem ofBits_one_eq : Ideal.ofBits .f32 0x3F800000#32 = (1 : EReal) := by
  rw [Cert.PairReal.ofBits_one, EReal.coe_one]

/-- The totals agree: the sum over the pairs `i < j` of one term per pair against the two full masked sums,
    each started from the zero word, added and multiplied by the word one. -/
theorem total_eq (x0 : Emb) (x1 : Tgt) (hfin : ∀ idx, ∃ r : ℝ, x0 idx = ((r : ℝ) : EReal))
    (kT : Fin 4096 → Fin 4096 → EReal)
    (hk : ∀ i j, i < j → kT i j = P x0 x1 i j + N x0 x1 i j) :
    (∑ i : Fin 4096, ∑ j : Fin 4096, if i < j then kT i j else 0)
      = ((Ideal.ofBits .f32 0x00000000#32 + ∑ i : Fin 4096, ∑ j : Fin 4096, P x0 x1 i j)
          + (Ideal.ofBits .f32 0x00000000#32 + ∑ i : Fin 4096, ∑ j : Fin 4096, N x0 x1 i j))
        * Ideal.ofBits .f32 0x3F800000#32 := by
  rw [ofBits_one_eq, Ideal.ofBits_zero_f32, zero_add, zero_add, mul_one, ← Finset.sum_add_distrib]
  refine Finset.sum_congr rfl fun i _ => ?_
  rw [← Finset.sum_add_distrib]
  refine Finset.sum_congr rfl fun j _ => ?_
  by_cases h : i < j
  · rw [if_pos h, hk i j h]
  · rw [if_neg h, P_of_not_lt x0 x1 i j h, N_of_not_lt x0 x1 i j h, Ideal.ofBits_zero_f32, add_zero]

end Cert.Total

end
-- ==== Proof.Bridge.lean ====
/-
  The kernel's pair sum is the reference's result. On a pair i < j the kernel's term is built from the 256-term dot
  product of two augmented rows; that dot product is the first arrangement of the shifted squared distance of rows i
  and j (the 128 products, and the two live extra lanes carrying the row statistics), its clamp constant is the named
  10^-30, and the two target reshapes read the target vector at i and at j. For rows of reals that term is the sum of
  the reference's positive and negative terms of the pair; off the strict upper triangle the reference's terms are
  zero; so the two totals agree.
-/
import proofs.«179548_g20658792694316_retrytranche2_665_24_alg».proof.Proof.KRun
import proofs.«179548_g20658792694316_retrytranche2_665_24_alg».proof.Proof.Aug
import proofs.«179548_g20658792694316_retrytranche2_665_24_alg».proof.Proof.Total
import proofs.«179548_g20658792694316_retrytranche2_665_24_alg».proof.Proof.Gen.ReferenceIdeal.Read
import Idealize.ShloMosaic.PureOps.IdealRules

noncomputable section

namespace Cert.Bridge

open Idealize.ShloMosaic Idealize.ShloMosaic.TcCoe Idealize.ShloMosaic.ValueIdx Idealize.SL.Sem
open Cert.KernelIdeal Cert.KernelIdeal.Gen
open Cert.KernelIdeal.KTile Cert.KernelIdeal.Tile Cert.KernelIdeal.Aug Cert.KernelIdeal.KRun

/-- The clamp's named constant is 10^-30 exactly. -/
theorem epsK_eq : epsK = ((Cert.PairReal.eps : ℝ) : EReal) := by
  unfold Cert.PairReal.eps
  exact IdealRules.named_const.ideal_named_scalar _ _ _ _ rfl

/-- The target vector viewed as a column, at row i, and as a row, at column j. -/
theorem col_apply (t : Vec Ideal S4096 .i32) (i : Fin 4096) :
    (shapeCast S4096x1 t shapeCasts_S4096_S4096x1 : Vec Ideal S4096x1 .i32) (ix2 i 0) = t (ix1 i) :=
  shapeCast_apply t shapeCasts_S4096_S4096x1 (ix2 i 0) (ix1 i) (by
    rw [Shape.rowMajor_val_one, Shape.rowMajor_val_two]
    show i.val = i.val * 1 + 0
    omega)
theorem row_apply (t : Vec Ideal S4096 .i32) (j : Fin 4096) :
    (shapeCast S1x4096 t shapeCasts_S4096_S1x4096 : Vec Ideal S1x4096 .i32) (ix2 0 j) = t (ix1 j) :=
  shapeCast_apply t shapeCasts_S4096_S1x4096 (ix2 0 j) (ix1 j) (by
    rw [Shape.rowMajor_val_one, Shape.rowMajor_val_two]
    show j.val = 0 * 4096 + j.val
    omega)

/-- On a pair i < j, for rows of reals, the kernel's term is the sum of the reference's two terms. -/
theorem kTerm_split (x0 : Vec Ideal S4096x128 .f32) (t : Vec Ideal S4096 .i32)
    (hfin : ∀ idx, ∃ r : ℝ, x0 idx = ((r : ℝ) : EReal)) (i j : Fin 4096) (hij : i < j) :
    kTerm x0 (shapeCast S4096x1 t shapeCasts_S4096_S4096x1) (shapeCast S1x4096 t shapeCasts_S4096_S1x4096) i j
      = Cert.RefRead.P x0 t i j + Cert.RefRead.N x0 t i j := by
  unfold kTerm dK
  rw [col_apply, row_apply, dotAug_eq, epsK_eq]
  exact Cert.Total.pair_split x0 t hfin _ rfl i j hij

/-- The kernel's pair sum on core c is the reference's result of the same arguments. -/
theorem kSum_eq (m : (ℓ : Loc nD τ sig) → Buf (Elt Ideal) ℓ) (c : Dev nD)
    (hfin : ∀ idx, ∃ r : ℝ, emb m c idx = ((r : ℝ) : EReal)) :
    kSum m c = Cert.ReferenceIdeal.Read.val_main_v47 (F := Ideal) (emb m c) (tgt m c) ix0 := by
  unfold kSum
  rw [Cert.Total.total_eq (emb m c) (tgt m c) hfin _ (fun i j hij => kTerm_split (emb m c) (tgt m c) hfin i j hij),
    ← Cert.RefRead.result_eq]

end Cert.Bridge

end
-- ==== Proof.Finite.lean ====
import proofs.«179548_g20658792694316_retrytranche2_665_24_alg».proof.Pre_finite_inputs
import proofs.«179548_g20658792694316_retrytranche2_665_24_alg».proof.Proof.Gen.Pre_finite_inputs
import Idealize.ShloMosaic.Lib.ReduceAll
import Idealize.ShloMosaic.Lib.ValueIdx
import Idealize.ShloMosaic.PureOps.Ideal.Laws

noncomputable section

/-! The precondition says that every entry of the embeddings has absolute value below +∞. Read at the exact
    extended reals, an entry `x` with `max x (-x) < ⊤` is neither `⊤` nor `⊥`, so it is a real number. -/

namespace Cert.Finite

open Idealize.ShloMosaic Idealize.ShloMosaic.ValueIdx Cert.Pre_finite_inputs

/-- The rank-0 shape has exactly one index. -/
instance : Subsingleton S_.Idx := ⟨fun a b => funext fun d => d.elim0⟩

/-- The f32 word of +∞ is the top extended real. -/
theorem ofBits_inf : Ideal.ofBits .f32 0x7F800000#32 = (⊤ : EReal) := by
  simp [Ideal.ofBits, Ideal.ieee]

/-- An ordered "less than" comparison of extended reals that answers 1 is the strict order. -/
theorem lt_of_cmp_olt {a b : EReal} (h : Ideal.cmp .olt a b = 1#1) : a < b := by
  change BitVec.ofBool (decide (a < b)) = 1#1 at h
  by_contra hn
  rw [decide_eq_false hn] at h
  exact absurd h (by decide)

/-- An extended real whose absolute value `max x (-x)` is below `⊤` is a real number. -/
theorem real_of_abs_lt_top (x : EReal) (h : max x (-x) < ⊤) : ∃ r : ℝ, x = ((r : ℝ) : EReal) := by
  induction x using EReal.rec with
  | bot => exact absurd h (by simp)
  | top => exact absurd h (by simp)
  | coe r => exact ⟨r, rfl⟩

/-- Under the precondition every entry of the embeddings is a real number. -/
theorem real_of_pre (x0 : FVec Ideal S4096x128 .f32) (x1 : IVec S4096 32)
    (h : Cert.Pre_finite_inputs.fn (F := Ideal) x0 x1 = fun _ => 1#1) :
    ∀ idx : S4096x128.Idx, ∃ r : ℝ, x0 idx = ((r : ℝ) : EReal) := by
  intro idx
  have h0 := congrFun h ix0
  dsimp only [Cert.Pre_finite_inputs.fn] at h0
  have h1 := Host.reduce_andi_all _ _ _ _ _ h0 idx
  have h2 : Ideal.cmp .olt (max (x0 idx) (-(x0 idx))) (Ideal.ofBits .f32 0x7F800000#32) = 1#1 := h1
  rw [ofBits_inf] at h2
  exact real_of_abs_lt_top _ (lt_of_cmp_olt h2)

end Cert.Finite

end
-- ==== Proof.lean ====
/-
  The certificate of a contrastive loss over all unordered pairs of 4096 embeddings of dimension 128: a Pallas kernel
  that reads every squared distance off one matrix product of augmented rows, tile by tile over the upper triangle,
  against the reference that forms the full 4096×4096 distance matrix on the host.

  Over the extended reals both compute, for a pair of rows with difference u, the same squared distance
  d2 = Σ u_k² + c1 Σ u_k + c2 (c1, c2 the two float words both programs spell, read as the dyadic rationals they denote).
  The kernel clamps d2 below at the named 10^-30 and takes the distance as x · x^(-1/2); the reference clamps at 0 and takes
  the square root. Completing the square, d2 ≥ c2 − 32 c1² = 81527 / 2^79 > 10^-30 for every real input, so neither clamp
  ever acts, x · x^(-1/2) is the square root, and the terms of a pair agree. The kernel's sum over the ten upper tiles, in
  eight-row blocks combined by trees, and the reference's two masked sums over all 4096² pairs are the same sum, because
  addition of extended reals is commutative and associative. Finiteness of the inputs is used exactly once: to know the
  entries are reals, so that the two arrangements of d2 are one number.

  The frames of the two kernel programs are the generated ones; the reference's frame is its generated run with the result
  dropped; the ten entries of the idealization's ledger are ten statements of the one named constant.
-/
import proofs.«179548_g20658792694316_retrytranche2_665_24_alg».proof.Defs
import proofs.«179548_g20658792694316_retrytranche2_665_24_alg».proof.Proof.Gen.Kernel
import proofs.«179548_g20658792694316_retrytranche2_665_24_alg».proof.Proof.Gen.Kernel.Skeleton
import proofs.«179548_g20658792694316_retrytranche2_665_24_alg».proof.Proof.Gen.Kernel.Launch
import proofs.«179548_g20658792694316_retrytranche2_665_24_alg».proof.Proof.Gen.Kernel.Points
import proofs.«179548_g20658792694316_retrytranche2_665_24_alg».proof.Proof.Gen.Kernel.Frame
import proofs.«179548_g20658792694316_retrytranche2_665_24_alg».proof.Proof.Gen.KernelIdeal
import proofs.«179548_g20658792694316_retrytranche2_665_24_alg».proof.Proof.Gen.KernelIdeal.Skeleton
import proofs.«179548_g20658792694316_retrytranche2_665_24_alg».proof.Proof.Gen.KernelIdeal.Launch
import proofs.«179548_g20658792694316_retrytranche2_665_24_alg».proof.Proof.Gen.KernelIdeal.Points
import proofs.«179548_g20658792694316_retrytranche2_665_24_alg».proof.Proof.Gen.KernelIdeal.Frame
import proofs.«179548_g20658792694316_retrytranche2_665_24_alg».proof.Proof.Gen.ReferenceIdeal
import proofs.«179548_g20658792694316_retrytranche2_665_24_alg».proof.Proof.Gen.Pre_finite_inputs
import proofs.«179548_g20658792694316_retrytranche2_665_24_alg».proof.Proof.Gen.ReferenceIdeal.Run
import proofs.«179548_g20658792694316_retrytranche2_665_24_alg».proof.Proof.Gen.ReferenceIdeal.Read
import proofs.«179548_g20658792694316_retrytranche2_665_24_alg».proof.Proof.Bridge
import proofs.«179548_g20658792694316_retrytranche2_665_24_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger's ten entries are one fact: the table gives the clamp's name the value 10^-30. -/
theorem preserves : Cert.preserves_Kernel_KernelIdeal :=
  ⟨IdealRules.named_const.statement Cert.KernelIdeal.κ "inv_1000000000000000000000000000000" .f32 0x0DA24260#32 ((1 / 1000000000000000000000000000000 : ℝ) : EReal) rfl,
   IdealRules.named_const.statement Cert.KernelIdeal.κ "inv_1000000000000000000000000000000" .f32 0x0DA24260#32 ((1 / 1000000000000000000000000000000 : ℝ) : EReal) rfl,
   IdealRules.named_const.statement Cert.KernelIdeal.κ "inv_1000000000000000000000000000000" .f32 0x0DA24260#32 ((1 / 1000000000000000000000000000000 : ℝ) : EReal) rfl,
   IdealRules.named_const.statement Cert.KernelIdeal.κ "inv_1000000000000000000000000000000" .f32 0x0DA24260#32 ((1 / 1000000000000000000000000000000 : ℝ) : EReal) rfl,
   IdealRules.named_const.statement Cert.KernelIdeal.κ "inv_1000000000000000000000000000000" .f32 0x0DA24260#32 ((1 / 1000000000000000000000000000000 : ℝ) : EReal) rfl,
   IdealRules.named_const.statement Cert.KernelIdeal.κ "inv_1000000000000000000000000000000" .f32 0x0DA24260#32 ((1 / 1000000000000000000000000000000 : ℝ) : EReal) rfl,
   IdealRules.named_const.statement Cert.KernelIdeal.κ "inv_1000000000000000000000000000000" .f32 0x0DA24260#32 ((1 / 1000000000000000000000000000000 : ℝ) : EReal) rfl,
   IdealRules.named_const.statement Cert.KernelIdeal.κ "inv_1000000000000000000000000000000" .f32 0x0DA24260#32 ((1 / 1000000000000000000000000000000 : ℝ) : EReal) rfl,
   IdealRules.named_const.statement Cert.KernelIdeal.κ "inv_1000000000000000000000000000000" .f32 0x0DA24260#32 ((1 / 1000000000000000000000000000000 : ℝ) : EReal) rfl,
   IdealRules.named_const.statement Cert.KernelIdeal.κ "inv_1000000000000000000000000000000" .f32 0x0DA24260#32 ((1 / 1000000000000000000000000000000 : ℝ) : EReal) rfl⟩

/-- Both idealized programs end at the pair sum of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun _ => Cert.KernelIdeal.KRun.kSum m c), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2]
  funext y
  rw [eq_ix0 y]
  exact (Cert.Bridge.kSum_eq m c (Cert.Finite.real_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
